-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x7 .f32) (main_arg5 : FVec F S7 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x128 : Shape := ⟨2, ![5000, 128]⟩
abbrev S5000x16 : Shape := ⟨2, ![5000, 16]⟩
abbrev S3300000x16 : Shape := ⟨2, ![3300000, 16]⟩
abbrev S1x16 : Shape := ⟨2, ![1, 16]⟩
abbrev S100000x7 : Shape := ⟨2, ![100000, 7]⟩
abbrev S5000x7 : Shape := ⟨2, ![5000, 7]⟩
abbrev S3300000x7 : Shape := ⟨2, ![3300000, 7]⟩
abbrev S1x7 : Shape := ⟨2, ![1, 7]⟩
abbrev S5000 : Shape := ⟨1, ![5000]⟩
abbrev S5000x1 : Shape := ⟨2, ![5000, 1]⟩

abbrev nBuf : Space → Nat
  | .hbm => 82
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S100000x16, .f32⟩
  | .hbm, ⟨64, _⟩ => ⟨S100000x7, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x7, .f32⟩
  | .hbm, ⟨74, _⟩ => ⟨S3300000x1, .f32⟩
  | .hbm, ⟨75, _⟩ => ⟨S3300000x7, .f32⟩
  | .hbm, ⟨76, _⟩ => ⟨S3300000x7, .f32⟩
  | .hbm, ⟨77, _⟩ => ⟨S_, .f32⟩
  | .hbm, ⟨78, _⟩ => ⟨S100000x7, .f32⟩
  | .hbm, ⟨79, _⟩ => ⟨S3300000x1, .i32⟩
  | .hbm, ⟨80, _⟩ => ⟨S100000x7, .f32⟩
  | .hbm, ⟨81, _⟩ => ⟨S100000x7, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x7, .f32⟩
  | .local _ .vmem, ⟨13, _⟩ => ⟨S5000x7, .f32⟩
  | .local _ .vmem, ⟨14, _⟩ => ⟨S5000x7, .f32⟩
  | .local _ .vmem, ⟨15, _⟩ => ⟨S5000x7, .f32⟩
  | .local _ .vmem, ⟨16, _⟩ => ⟨S5000x7, .f32⟩
  | .local _ .vmem, ⟨17, _⟩ => ⟨S7, .f32⟩
  | .local _ .vmem, ⟨18, _⟩ => ⟨S5000x7, .f32⟩
  | .local _ .vmem, ⟨19, _⟩ => ⟨S5000x7, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  inb_S16_S16_0 : ∀ a, (![0] : Fin 1 → Nat) a + S16.size a ≤ S16.size a
  h_S16 : 0 < S16.numel
  shapeCasts_S16_S1x16 : S16.ShapeCasts S1x16
  shapeCasts_S1x16_S1x16 : S1x16.ShapeCasts S1x16
  broadcasts_S1x16_S5000x16 : S1x16.Broadcasts S5000x16
  shapeCasts_S5000x16_S5000x16 : S5000x16.ShapeCasts S5000x16
  inb_S16x7_S16x7_0_0 : ∀ a, (![0, 0] : Fin 2 → Nat) a + S16x7.size a ≤ S16x7.size a
  h_S16x7 : 0 < S16x7.numel
  inb_S5000x7_S5000x7_0_0 : ∀ a, (![0, 0] : Fin 2 → Nat) a + S5000x7.size a ≤ S5000x7.size a
  h_S5000x7 : 0 < S5000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  inb_S7_S7_0 : ∀ a, (![0] : Fin 1 → Nat) a + S7.size a ≤ S7.size a
  h_S7 : 0 < S7.numel
  shapeCasts_S7_S1x7 : S7.ShapeCasts S1x7
  shapeCasts_S1x7_S1x7 : S1x7.ShapeCasts S1x7
  broadcasts_S1x7_S5000x7 : S1x7.Broadcasts S5000x7
  shapeCasts_S5000x7_S5000x7 : S5000x7.ShapeCasts S5000x7
  reduces_S5000x7_S5000 : S5000x7.Reduces [1] S5000
  shapeCasts_S5000_S5000x1 : S5000.ShapeCasts S5000x1
  broadcasts_S5000x1_S5000x7 : S5000x1.Broadcasts S5000x7
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x7_S5000x7_1_0_0_1_n_n_wf : DotDims.WF S5000x16 S16x7 S5000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x7.size a ≤ S16x7.size a
  hwx2_1 : ∀ i : grid2.Coords, EltTy.bits .f32 = 32 ∨ (Rect.block (s := S16x7) S16x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x7.size a ≤ S100000x7.size a
  hwx2_2 : ∀ i : grid2.Coords, EltTy.bits .f32 = 32 ∨ (Rect.block (s := S100000x7) S5000x7.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x7.size a ≤ S100000x7.size a
  hwx3_0 : ∀ i : grid3.Coords, EltTy.bits .f32 = 32 ∨ (Rect.block (s := S100000x7) S5000x7.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S7.size a ≤ S7.size a
  hwx3_1 : ∀ i : grid3.Coords, EltTy.bits .f32 = 32 ∨ (Rect.block (s := S7) S7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x7.size a ≤ S100000x7.size a
  hwx3_2 : ∀ i : grid3.Coords, EltTy.bits .f32 = 32 ∨ (Rect.block (s := S100000x7) S5000x7.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x7, .f32⟩
  | 5 => ⟨S7, .f32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x7, .f32⟩
  | 70 => ⟨S100000, .i32⟩
  | 71 => ⟨S3300000, .i32⟩
  | 72 => ⟨S3300000, .i32⟩
  | 73 => ⟨S_, .f32⟩
  | 74 => ⟨S3300000, .f32⟩
  | 75 => ⟨S_, .f32⟩
  | 76 => ⟨S100000, .f32⟩
  | 77 => ⟨S3300000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x7, .f32⟩
  | 115 => ⟨S3300000x1, .f32⟩
  | 116 => ⟨S3300000x7, .f32⟩
  | 117 => ⟨S3300000x7, .f32⟩
  | 118 => ⟨S_, .f32⟩
  | 119 => ⟨S100000x7, .f32⟩
  | 120 => ⟨S3300000x1, .i32⟩
  | 121 => ⟨S100000x7, .f32⟩
  | 122 => ⟨S1x7, .f32⟩
  | 123 => ⟨S100000x7, .f32⟩
  | 124 => ⟨S100000x7, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S100000x7, .f32⟩
  | 4 => ⟨S100000x7, .f32⟩
  | 5 => ⟨S100000x7, .f32⟩
  | 6 => ⟨S_, .f32⟩
  | 7 => ⟨S100000, .f32⟩
  | 8 => ⟨S100000x1, .f32⟩
  | 9 => ⟨S100000x1, .f32⟩
  | 10 => ⟨S100000x7, .f32⟩
  | 11 => ⟨S100000x7, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel's run with its result named. Every weakly fair execution of the program ends with the result
  array holding what the last of the four grid computations leaves in it — the contents at the last segment boundary,
  the fold of the host stretches and of the four regions' write-backs from the launch memory — and with the six
  argument arrays as launched.
-/
import proofs.«110577_j34677565948890_1_alg».proof.Proof.Gen.KernelIdeal.Frame

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v59) = W9 m ρ c (Proc.devRef .tc main_v59)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v59 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Hand

end
-- ==== Proof.Spec.lean ====
/-
  The dense stages of a two-layer graph convolution, each as one function of whole arrays read index by index over the
  extended reals: the product of a matrix of node features with a weight matrix; a row with a bias added, clipped below
  at zero; and the logarithm of the softmax of a row with a bias added, written the stable way — the row's maximum is
  subtracted first, then the logarithm of the sum of the exponentials of what is left.
-/
import Idealize.ShloMosaic.PureOps.Ideal.Laws
import Idealize.ShloMosaic.Lib.ValueIdx

noncomputable section

open scoped BigOperators

namespace Cert.Gcn

open Idealize.ShloMosaic Idealize.ShloMosaic.ValueIdx

/-- The product of an M x K array with a K x N array: entry (r, c) is the sum over k of x (r, k) * w (k, c). -/
def mm {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, (i 0).isLt⟩ : Fin M) k) * w (ix2 k (⟨(i 1).val, (i 1).isLt⟩ : Fin N))

theorem mm_ix2 {M K N : ℕ} (x : (⟨2, ![M, K]⟩ : Shape).Idx → EReal) (w : (⟨2, ![K, N]⟩ : Shape).Idx → EReal)
    (r : Fin M) (c : Fin N) : mm x w (ix2 r c) = ∑ k : Fin K, x (ix2 r k) * w (ix2 k c) := rfl

/-- Entry (r, j) of an M x N array with entry j of a bias vector added. -/
def biased {M N : ℕ} (a : (⟨2, ![M, N]⟩ : Shape).Idx → EReal) (b : (⟨1, ![N]⟩ : Shape).Idx → EReal) (r : Fin M) (j : Fin N) : EReal :=
  a (ix2 r j) + b (ix1 j)

/-- The biased array clipped below at zero (the zero word of the 32-bit format). -/
def biasRelu {M N : ℕ} (a : (⟨2, ![M, N]⟩ : Shape).Idx → EReal) (b : (⟨1, ![N]⟩ : Shape).Idx → EReal) :
    (⟨2, ![M, N]⟩ : Shape).Idx → EReal :=
  fun i => max (biased a b (⟨(i 0).val, (i 0).isLt⟩ : Fin M) (⟨(i 1).val, (i 1).isLt⟩ : Fin N)) (Ideal.ofBits .f32 0x00000000#32)

theorem biasRelu_ix2 {M N : ℕ} (a : (⟨2, ![M, N]⟩ : Shape).Idx → EReal) (b : (⟨1, ![N]⟩ : Shape).Idx → EReal) (r : Fin M) (c : Fin N) :
    biasRelu a b (ix2 r c) = max (a (ix2 r c) + b (ix1 c)) (Ideal.ofBits .f32 0x00000000#32) := rfl

/-- The largest entry of biased row r, folded from the word of minus infinity. -/
def rowMax {M N : ℕ} (a : (⟨2, ![M, N]⟩ : Shape).Idx → EReal) (b : (⟨1, ![N]⟩ : Shape).Idx → EReal) (r : Fin M) : EReal :=
  (Finset.univ : Finset (Fin N)).fold max (Ideal.ofBits .f32 0xFF800000#32) (fun j => biased a b r j)

/-- The logarithm of the sum, over biased row r, of the exponentials of the entries less the row's maximum. -/
def rowLse {M N : ℕ} (a : (⟨2, ![M, N]⟩ : Shape).Idx → EReal) (b : (⟨1, ![N]⟩ : Shape).Idx → EReal) (r : Fin M) : EReal :=
  Ideal.log (∑ j : Fin N, Ideal.exp (biased a b r j - rowMax a b r))

/-- The logarithm of the softmax of each biased row. -/
def biasLogSoftmax {M N : ℕ} (a : (⟨2, ![M, N]⟩ : Shape).Idx → EReal) (b : (⟨1, ![N]⟩ : Shape).Idx → EReal) :
    (⟨2, ![M, N]⟩ : Shape).Idx → EReal :=
  fun i => biased a b (⟨(i 0).val, (i 0).isLt⟩ : Fin M) (⟨(i 1).val, (i 1).isLt⟩ : Fin N) - rowMax a b (⟨(i 0).val, (i 0).isLt⟩ : Fin M)
    - rowLse a b (⟨(i 0).val, (i 0).isLt⟩ : Fin M)

theorem biasLogSoftmax_ix2 {M N : ℕ} (a : (⟨2, ![M, N]⟩ : Shape).Idx → EReal) (b : (⟨1, ![N]⟩ : Shape).Idx → EReal) (r : Fin M) (c : Fin N) :
    biasLogSoftmax a b (ix2 r c) = biased a b r c - rowMax a b r - rowLse a b r := rfl

/-- Two arrays with equal rows r have equal biased rows r: maximum and log-sum-exp of the row depend on that row only. -/
theorem rowMax_congr {M M' N : ℕ} (a : (⟨2, ![M, N]⟩ : Shape).Idx → EReal) (a' : (⟨2, ![M', N]⟩ : Shape).Idx → EReal)
    (b : (⟨1, ![N]⟩ : Shape).Idx → EReal) (r : Fin M) (r' : Fin M') (h : ∀ j : Fin N, a (ix2 r j) = a' (ix2 r' j)) :
    rowMax a b r = rowMax a' b r' := by
  unfold rowMax biased
  exact congrArg (fun f => (Finset.univ : Finset (Fin N)).fold max (Ideal.ofBits .f32 0xFF800000#32) f) (funext fun j => by rw [h j])

theorem rowLse_congr {M M' N : ℕ} (a : (⟨2, ![M, N]⟩ : Shape).Idx → EReal) (a' : (⟨2, ![M', N]⟩ : Shape).Idx → EReal)
    (b : (⟨1, ![N]⟩ : Shape).Idx → EReal) (r : Fin M) (r' : Fin M') (h : ∀ j : Fin N, a (ix2 r j) = a' (ix2 r' j)) :
    rowLse a b r = rowLse a' b r' := by
  unfold rowLse
  rw [rowMax_congr a a' b r r' h]
  exact congrArg Ideal.log (Finset.sum_congr rfl fun j _ => by unfold biased; rw [h j])

end Cert.Gcn

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.Region0.lean ====
/-
  The first grid computation: each of the twenty grid points multiplies 5000 rows of the node features by the whole
  first weight matrix (both operands rounded to a shorter format on the way, which changes nothing over the extended
  reals) and writes the 5000 x 16 product back as its block of rows. Whatever the arrays hold when the computation
  starts, the output array ends holding the whole matrix product.
-/
import proofs.«110577_j34677565948890_1_alg».proof.Proof.Gen.KernelIdeal.Frame
import proofs.«110577_j34677565948890_1_alg».proof.Proof.Spec
import proofs.«110577_j34677565948890_1_alg».proof.Proof.LibDotIx2
import Idealize.ShloMosaic.Lib.Pipeline.Value

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-- The first product's dimension numbers are those of a plain 5000 x 128 by 128 x 16 product. -/
theorem plain0 : PlainDot dot_S5000x128_S128x16_S5000x16_1_0_0_1_n_n where
  rank := rfl
  size := rfl
  l0 := fun j q => by
    unfold DotDims.lhsIdx
    rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
    rfl
  l1 := fun j q => dot_S5000x128_S128x16_S5000x16_1_0_0_1_n_n.lhsIdx_val_of_single rfl j q
  r0 := fun j q => dot_S5000x128_S128x16_S5000x16_1_0_0_1_n_n.rhsIdx_val_of_single rfl j q
  r1 := fun j q => by
    unfold DotDims.rhsIdx
    rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
    rfl

/-- What a grid point stores at (p, q) of its block: the sum over k of its feature rows' (p, k) times the weights' (k, q). -/
theorem pay0_ix2 (x0 : Vec Ideal S5000x128 .f32) (x1 : Vec Ideal S128x16 .f32) (p : Fin 5000) (q : Fin 16) :
    k0_pay1 x0 x1 (ix2 p q) = ∑ k : Fin 128, (x0 (ix2 p k) : EReal) * (x1 (ix2 k q) : EReal) := by
  unfold k0_pay1
  exact matmul_zero_ix2_any plain0 none _ _ p q

/-- If the point's feature rows are rows of X from row R - p on and its weights are W, the stored entry is the whole
    product's entry (R, q). -/
theorem pay0_at (x0 : Vec Ideal S5000x128 .f32) (x1 : Vec Ideal S128x16 .f32)
    (X : S100000x128.Idx → EReal) (W : S128x16.Idx → EReal) (p : Fin 5000) (q : Fin 16) (R : Fin 100000)
    (h0 : ∀ k : Fin 128, (x0 (ix2 p k) : EReal) = X (ix2 R k)) (h1 : ∀ k : Fin 128, (x1 (ix2 k q) : EReal) = W (ix2 k q)) :
    k0_pay1 x0 x1 (ix2 p q) = mm X W (ix2 R q) := by
  rw [pay0_ix2, mm_ix2]
  exact Finset.sum_congr rfl fun k _ => by rw [h0 k, h1 k]

/-- The printed index maps, decided over the grid: point t's feature block and output block are block t of rows, and
    the weights' block is the whole array. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point t writes back is block t of the whole product of the arrays the computation finds. -/
theorem flushed0_eq (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x16) hz2]
  obtain ⟨e00, e01, e10, e11, e20, e21⟩ := idx0 t
  have ht : t.val < 20 := by have h := t.isLt; have hN : cfg0.N = 20 := N_0; omega
  funext j
  obtain ⟨p, q, rfl⟩ : ∃ (p : Fin 5000) (q : Fin 16), j = ix2 p q := ⟨j 0, j 1, eq_ix2 j⟩
  show k0_pay1 (iblk0 V c 0 t) (iblk0 V c 1 t) (ix2 p q) = mm (V c main_arg0) (V c main_arg2) (((cfg0.win 2).blk t).view.emb (ix2 p q))
  have he : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 16 + 1 * q.val = q.val; omega
  rw [he]
  refine pay0_at (iblk0 V c 0 t) (iblk0 V c 1 t) (V c main_arg0) (V c main_arg2) p q _ (fun k => ?_) (fun k => ?_)
  · show V c main_arg0 (((cfg0.win 0).blk t).view.emb (ix2 p k)) = V c main_arg0 (ix2 (⟨t.val * 5000 + p.val, by omega⟩ : Fin 100000) k)
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 16 + 1 * q.val = q.val; omega

/-- An index of the output array is in point t's block iff each coordinate is in the block's range on its axis. -/
theorem mem_blk0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- Row r of the output lies in the block of point r / 5000. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  let t : Fin cfg0.N := ⟨(i 0).val / 5000, by rw [hN]; omega⟩
  obtain ⟨e00, e01, e10, e11, e20, e21⟩ := idx0 t
  have htv : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The output array after the first grid computation is the whole product of the arrays it found. -/
theorem final0 (c : Dev nD) : (dat0 V c).arrAt 2 cfg0.N = mm (V c main_arg0) (V c main_arg2) :=
  (dat0 V c).arrAt_eq_of_cover 2 (mm (V c main_arg0) (V c main_arg2)) (fun t _ => flushed0_eq V c t) cover0

end

end Cert.KernelIdeal.Hand

end
-- ==== Proof.Region1.lean ====
/-
  The second grid computation: each of the twenty grid points adds the first bias vector to every one of its 5000
  rows of aggregated features and clips the sums below at zero, writing them back as its block of rows. Whatever the
  arrays hold when the computation starts, the output array ends holding the biased, clipped array.
-/
import proofs.«110577_j34677565948890_1_alg».proof.Proof.Gen.KernelIdeal.Frame
import proofs.«110577_j34677565948890_1_alg».proof.Proof.Spec
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

theorem zero2_r1 : (![0, 0] : Fin 2 → Nat) = fun _ => 0 := funext fun a => by fin_cases a <;> rfl
theorem zero1_r1 : (![0] : Fin 1 → Nat) = fun _ => 0 := funext fun a => by fin_cases a; rfl

/-- What a grid point stores at (p, q) of its block: its entry (p, q) plus entry q of the bias, clipped below at zero. -/
theorem pay1_ix2 (v0 : Vec Ideal S16 .f32) (v4 : Vec Ideal S5000x16 .f32) (p : Fin 5000) (q : Fin 16) :
    k1_pay1 v0 v4 (ix2 p q) = max ((v4 (ix2 p q) : EReal) + (v0 (ix1 q) : EReal)) (Ideal.ofBits .f32 0x00000000#32) := by
  unfold k1_pay1
  simp only [shapeCast_self]
  show max ((v4 (ix2 p q) : EReal) + broadcastTo S5000x16 (shapeCast S1x16 v0 shapeCasts_S16_S1x16) broadcasts_S1x16_S5000x16 (ix2 p q)) (Ideal.ofBits .f32 0x00000000#32) = _
  rw [broadcastTo_1b_ab_apply, shapeCast_a_1a_apply]

/-- If the point's entry (p, q) is entry (R, q) of A and its bias is B, the stored entry is the biased, clipped array's (R, q). -/
theorem pay1_at (v0 : Vec Ideal S16 .f32) (v4 : Vec Ideal S5000x16 .f32)
    (A : S100000x16.Idx → EReal) (B : S16.Idx → EReal) (p : Fin 5000) (q : Fin 16) (R : Fin 100000)
    (hA : (v4 (ix2 p q) : EReal) = A (ix2 R q)) (hB : (v0 (ix1 q) : EReal) = B (ix1 q)) :
    k1_pay1 v0 v4 (ix2 p q) = biasRelu A B (ix2 R q) := by
  rw [pay1_ix2, biasRelu_ix2, hA, hB]

/-- The printed index maps, decided over the grid: point t's input and output blocks are block t of rows, and the
    bias's block is the whole vector. -/
theorem idx1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point t writes back is block t of the biased, clipped array of what the computation finds. -/
theorem flushed1_eq (c : Dev nD) (t : Fin cfg1.N) :
    (dat1 V c).flushed 2 t = ((cfg1.win 2).blk t).view.read (Elt Ideal) (biasRelu (V c main_v43) (V c main_arg3)) := by
  show (cfg1.win 2).cut (grid1.coords t) ((dat1 V c).after 2 t) = _
  rw [after1_2]
  unfold out1_2
  rw [View.canon_unit_zero zero2_r1]
  simp only [View.ld_unit_zero (S := S5000x16) zero2_r1, View.ld_unit_zero (S := S16) zero1_r1]
  obtain ⟨e00, e01, e10, e20, e21⟩ := idx1 t
  have ht : t.val < 20 := by have h := t.isLt; have hN : cfg1.N = 20 := N_1; omega
  funext j
  obtain ⟨p, q, rfl⟩ : ∃ (p : Fin 5000) (q : Fin 16), j = ix2 p q := ⟨j 0, j 1, eq_ix2 j⟩
  show k1_pay1 (iblk1 V c 1 t) (iblk1 V c 0 t) (ix2 p q) = biasRelu (V c main_v43) (V c main_arg3) (((cfg1.win 2).blk t).view.emb (ix2 p q))
  have he : ((cfg1.win 2).blk t).view.emb (ix2 p q) = ix2 (⟨t.val * 5000 + p.val, by omega⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 16 + 1 * q.val = q.val; omega
  rw [he]
  refine pay1_at (iblk1 V c 1 t) (iblk1 V c 0 t) (V c main_v43) (V c main_arg3) p q _ ?_ ?_
  · show V c main_v43 (((cfg1.win 0).blk t).view.emb (ix2 p q)) = V c main_v43 (ix2 (⟨t.val * 5000 + p.val, by omega⟩ : Fin 100000) q)
    refine congrArg (V c main_v43) ?_
    funext a; apply Fin.ext
    match a with
    | ⟨0, _⟩ => show win1_0.index t (0 : Fin 2) * 5000 + 1 * p.val = t.val * 5000 + p.val; omega
    | ⟨1, _⟩ => show win1_0.index t (1 : Fin 2) * 16 + 1 * q.val = q.val; omega
  · show V c main_arg3 (((cfg1.win 1).blk t).view.emb (ix1 q)) = V c main_arg3 (ix1 q)
    refine congrArg (V c main_arg3) ?_
    funext a; apply Fin.ext
    match a with
    | ⟨0, _⟩ => show win1_1.index t (0 : Fin 1) * 16 + 1 * q.val = q.val; omega

/-- An index of the output array is in point t's block iff each coordinate is in the block's range on its axis. -/
theorem mem_blk1 (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v44).slice (win1_2.rect t)).set ↔ _
  rw [View.set_slice_whole, Rect.mem_set_unit]
  exact Iff.rfl

/-- Row r of the output lies in the block of point r / 5000. -/
theorem cover1 (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 20 := N_1
  let t : Fin cfg1.N := ⟨(i 0).val / 5000, by rw [hN]; omega⟩
  obtain ⟨e00, e01, e10, e20, e21⟩ := idx1 t
  have htv : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 16 ≤ (i 1).val ∧ (i 1).val < win1_2.index t (1 : Fin 2) * 16 + 16; omega

/-- The output array after the second grid computation is the biased, clipped array of what it found. -/
theorem final1 (c : Dev nD) : (dat1 V c).arrAt 2 cfg1.N = biasRelu (V c main_v43) (V c main_arg3) :=
  (dat1 V c).arrAt_eq_of_cover 2 (biasRelu (V c main_v43) (V c main_arg3)) (fun t _ => flushed1_eq V c t) cover1

end

end Cert.KernelIdeal.Hand

end
-- ==== Proof.Region2.lean ====
/-
  The third grid computation: each of the twenty grid points multiplies 5000 rows of the hidden features by the whole
  second weight matrix (both operands rounded to a shorter format on the way, which changes nothing over the extended
  reals) and writes the 5000 x 7 product back as its block of rows. Whatever the arrays hold when the computation
  starts, the output array ends holding the whole matrix product.
-/
import proofs.«110577_j34677565948890_1_alg».proof.Proof.Gen.KernelIdeal.Frame
import proofs.«110577_j34677565948890_1_alg».proof.Proof.Spec
import proofs.«110577_j34677565948890_1_alg».proof.Proof.LibDotIx2
import Idealize.ShloMosaic.Lib.Pipeline.Value

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

theorem hz2' : (![0, 0] : Fin 2 → Nat) = fun _ => 0 := funext fun a => by fin_cases a <;> rfl

/-- The second product's dimension numbers are those of a plain 5000 x 16 by 16 x 7 product. -/
theorem plain2 : PlainDot dot_S5000x16_S16x7_S5000x7_1_0_0_1_n_n where
  rank := rfl
  size := rfl
  l0 := fun j q => by
    unfold DotDims.lhsIdx
    rw [dif_neg (show ¬(0 : Fin S5000x16.rank) ∈ dot_S5000x16_S16x7_S5000x7_1_0_0_1_n_n.lhsBatch by decide), dif_pos (show (0 : Fin S5000x16.rank) ∈ dot_S5000x16_S16x7_S5000x7_1_0_0_1_n_n.lhsNonContracting by decide)]
    rfl
  l1 := fun j q => dot_S5000x16_S16x7_S5000x7_1_0_0_1_n_n.lhsIdx_val_of_single rfl j q
  r0 := fun j q => dot_S5000x16_S16x7_S5000x7_1_0_0_1_n_n.rhsIdx_val_of_single rfl j q
  r1 := fun j q => by
    unfold DotDims.rhsIdx
    rw [dif_neg (show ¬(1 : Fin S16x7.rank) ∈ dot_S5000x16_S16x7_S5000x7_1_0_0_1_n_n.rhsBatch by decide), dif_pos (show (1 : Fin S16x7.rank) ∈ dot_S5000x16_S16x7_S5000x7_1_0_0_1_n_n.rhsNonContracting by decide)]
    rfl

/-- What a grid point stores at (p, q) of its block: the sum over k of its hidden rows' (p, k) times the weights' (k, q). -/
theorem pay2_ix2 (x0 : Vec Ideal S5000x16 .f32) (x1 : Vec Ideal S16x7 .f32) (p : Fin 5000) (q : Fin 7) :
    k2_pay1 x0 x1 (ix2 p q) = ∑ k : Fin 16, (x0 (ix2 p k) : EReal) * (x1 (ix2 k q) : EReal) := by
  unfold k2_pay1
  rw [shapeCast_self]
  exact matmul_zero_ix2_any plain2 none _ _ p q

/-- If the point's hidden rows are rows of X from row R - p on and its weights are W, the stored entry is the whole
    product's entry (R, q). -/
theorem pay2_at (x0 : Vec Ideal S5000x16 .f32) (x1 : Vec Ideal S16x7 .f32)
    (X : S100000x16.Idx → EReal) (W : S16x7.Idx → EReal) (p : Fin 5000) (q : Fin 7) (R : Fin 100000)
    (h0 : ∀ k : Fin 16, (x0 (ix2 p k) : EReal) = X (ix2 R k)) (h1 : ∀ k : Fin 16, (x1 (ix2 k q) : EReal) = W (ix2 k q)) :
    k2_pay1 x0 x1 (ix2 p q) = mm X W (ix2 R q) := by
  rw [pay2_ix2, mm_ix2]
  exact Finset.sum_congr rfl fun k _ => by rw [h0 k, h1 k]

/-- The printed index maps, decided over the grid: point t's hidden block and output block are block t of rows, and
    the weights' block is the whole array. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b))

/-- What point t writes back is block t of the whole product of the arrays the computation finds. -/
theorem flushed2_eq (c : Dev nD) (t : Fin cfg2.N) :
    (dat2 V c).flushed 2 t = ((cfg2.win 2).blk t).view.read (Elt Ideal) (mm (V c main_v44) (V c main_arg4)) := by
  show (cfg2.win 2).cut (grid2.coords t) ((dat2 V c).after 2 t) = _
  rw [after2_2]
  unfold out2_2
  rw [View.canon_unit_zero hz2']
  simp only [View.ld_unit_zero (S := S5000x16) hz2', View.ld_unit_zero (S := S16x7) hz2']
  obtain ⟨e00, e01, e10, e11, e20, e21⟩ := idx2 t
  have ht : t.val < 20 := by have h := t.isLt; have hN : cfg2.N = 20 := N_2; omega
  funext j
  obtain ⟨p, q, rfl⟩ : ∃ (p : Fin 5000) (q : Fin 7), j = ix2 p q := ⟨j 0, j 1, eq_ix2 j⟩
  show k2_pay1 (iblk2 V c 0 t) (iblk2 V c 1 t) (ix2 p q) = mm (V c main_v44) (V c main_arg4) (((cfg2.win 2).blk t).view.emb (ix2 p q))
  have he : ((cfg2.win 2).blk t).view.emb (ix2 p q) = ix2 (⟨t.val * 5000 + p.val, by omega⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 7 + 1 * q.val = q.val; omega
  rw [he]
  refine pay2_at (iblk2 V c 0 t) (iblk2 V c 1 t) (V c main_v44) (V c main_arg4) p q _ (fun k => ?_) (fun k => ?_)
  · show V c main_v44 (((cfg2.win 0).blk t).view.emb (ix2 p k)) = V c main_v44 (ix2 (⟨t.val * 5000 + p.val, by omega⟩ : Fin 100000) k)
    refine congrArg (V c main_v44) ?_
    funext a; apply Fin.ext
    match a with
    | ⟨0, _⟩ => show win2_0.index t (0 : Fin 2) * 5000 + 1 * p.val = t.val * 5000 + p.val; omega
    | ⟨1, _⟩ => show win2_0.index t (1 : Fin 2) * 16 + 1 * k.val = k.val; omega
  · show V c main_arg4 (((cfg2.win 1).blk t).view.emb (ix2 k q)) = V c main_arg4 (ix2 k q)
    refine congrArg (V c main_arg4) ?_
    funext a; apply Fin.ext
    match a with
    | ⟨0, _⟩ => show win2_1.index t (0 : Fin 2) * 16 + 1 * k.val = k.val; omega
    | ⟨1, _⟩ => show win2_1.index t (1 : Fin 2) * 7 + 1 * q.val = q.val; omega

/-- An index of the output array is in point t's block iff each coordinate is in the block's range on its axis. -/
theorem mem_blk2 (t : Fin cfg2.N) (i : S100000x7.Idx) :
    i ∈ ((cfg2.win 2).blk t).view.set ↔ ∀ a : Fin 2, win2_2.index t a * S5000x7.size a ≤ (i a).val ∧ (i a).val < win2_2.index t a * S5000x7.size a + S5000x7.size a := by
  show i ∈ ((View.whole main_v45).slice (win2_2.rect t)).set ↔ _
  rw [View.set_slice_whole, Rect.mem_set_unit]
  exact Iff.rfl

/-- Row r of the output lies in the block of point r / 5000. -/
theorem cover2 (i : S100000x7.Idx) : ∃ t : Fin cfg2.N, (cfg2.win 2).flush t = true ∧ i ∈ ((cfg2.win 2).blk t).view.set := by
  have hi0 : (i 0).val < 100000 := (i 0).isLt
  have hi1 : (i 1).val < 7 := (i 1).isLt
  have hN : cfg2.N = 20 := N_2
  let t : Fin cfg2.N := ⟨(i 0).val / 5000, by rw [hN]; omega⟩
  obtain ⟨e00, e01, e10, e11, e20, e21⟩ := idx2 t
  have htv : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 7 ≤ (i 1).val ∧ (i 1).val < win2_2.index t (1 : Fin 2) * 7 + 7; omega

/-- The output array after the third grid computation is the whole product of the arrays it found. -/
theorem final2 (c : Dev nD) : (dat2 V c).arrAt 2 cfg2.N = mm (V c main_v44) (V c main_arg4) :=
  (dat2 V c).arrAt_eq_of_cover 2 (mm (V c main_v44) (V c main_arg4)) (fun t _ => flushed2_eq V c t) cover2

end

end Cert.KernelIdeal.Hand

end
-- ==== Proof.LibRowReduce.lean ====
/-
  Reductions of an n x k array along its rows, read at a row given by its coordinate. The reduced index (r) with the
  inner coordinate j put back is the array index (r, j); so a lane sum at r is the finite sum over j of the entries
  (r, j), a lane maximum is the fold of max over them from the accumulator's value, and the host's sum and maximum
  over the same axis are the same sum (after the initial value) and the same fold (from the initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Row r's reduced index with the inner coordinate j inserted is (r, j). -/
theorem lift_row {n k : ℕ} (h : (⟨2, ![n, k]⟩ : Shape).Reduces [1] (⟨1, ![n]⟩ : Shape)) (r : Fin n)
    (j : Fin ((⟨2, ![n, k]⟩ : Shape).size 1)) : h.lift (ix1 r) j = ix2 r (⟨j.val, j.isLt⟩ : Fin k) := by
  funext c; apply Fin.ext
  fin_cases c <;> rfl

/-- A lane sum over the second axis, at row r: the sum of the row's entries. -/
theorem multiReduction_add_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.add.neutral φ hφ) (r : Fin n) :
    multiReduction .add [1] (⟨1, ![n]⟩ : Shape) src acc h hφ hacc (ix1 r) = ∑ j : Fin k, (src (ix2 r j) : EReal) :=
  (Ideal.multiReduction_add_single src acc h hφ hacc (ix1 r)).trans
    (Finset.sum_congr rfl fun j _ => congrArg src (lift_row h r j))

/-- A lane maximum over the second axis, at row r: the fold of max over the row's entries from the accumulator's value. -/
theorem multiReduction_max_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.maximumf.neutral φ hφ) (r : Fin n) :
    multiReduction .maximumf [1] (⟨1, ![n]⟩ : Shape) src acc h hφ hacc (ix1 r)
      = (Finset.univ : Finset (Fin k)).fold max (Ideal.ofBits φ acc) (fun j => (src (ix2 r j) : EReal)) :=
  (Ideal.multiReduction_maximumf_single src acc h hφ hacc (ix1 r)).trans
    (congrArg (fun f => Finset.fold max (Ideal.ofBits φ acc) f (Finset.univ : Finset (Fin k)))
      (funext fun j => congrArg src (lift_row h r j)))

/-- The host's sum over the second axis, at row r: the initial value plus the sum of the row's entries. -/
theorem hostReduceAdd_row {n k : ℕ} (h' : (⟨2, ![n, k]⟩ : Shape).ReducesTo [1] (⟨1, ![n]⟩ : Shape))
    (h : (⟨2, ![n, k]⟩ : Shape).Reduces [1] (⟨1, ![n]⟩ : Shape)) (x : (⟨2, ![n, k]⟩ : Shape).Idx → EReal) (init : EReal) (r : Fin n) :
    Ideal.hostReduceAdd h' x init (ix1 r) = init + ∑ j : Fin k, x (ix2 r j) :=
  (Ideal.hostReduceAdd_single h' h x init (ix1 r)).trans
    (congrArg (init + ·) (Finset.sum_congr rfl fun j _ => congrArg x (lift_row h r j)))

/-- The host's maximum over the second axis, at row r: the fold of max over the row's entries from the initial value. -/
theorem hostReduce_max_row {n k : ℕ} {φ : FTy} {u : Shape} (h' : (⟨2, ![n, k]⟩ : Shape).ReducesTo [1] (⟨1, ![n]⟩ : Shape))
    (h : (⟨2, ![n, k]⟩ : Shape).Reduces [1] (⟨1, ![n]⟩ : Shape)) (x : FVec Ideal (⟨2, ![n, k]⟩ : Shape) φ) (init : u.Idx → Ideal φ)
    (hu : 0 < u.numel) (r : Fin n) :
    Host.reduce FloatOps.maximumf x init h' hu (ix1 r)
      = (Finset.univ : Finset (Fin k)).fold max (init (Shape.Idx.first hu) : EReal) (fun j => (x (ix2 r j) : EReal)) :=
  (Host.reduce_eq_fold_single FloatOps.maximumf x init h' h hu (ix1 r)).trans
    (congrArg (fun f => Finset.fold max (init (Shape.Idx.first hu) : EReal) f (Finset.univ : Finset (Fin k)))
      (funext fun j => congrArg x (lift_row h r j)))

/-- Folding max from a value b over any entries gives something at least b: taking the maximum with b again changes nothing. -/
theorem max_fold_max_self {ι : Type} (s : Finset ι) (b : EReal) (f : ι → EReal) : max b (s.fold max b f) = s.fold max b f :=
  max_eq_right (Finset.le_fold_max b |>.mpr (Or.inl le_rfl))

end Idealize.ShloMosaic.ValueIdx

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Region3.lean ====
/-
  The fourth grid computation: each of the twenty grid points adds the second bias vector to every one of its 5000
  rows of aggregated class scores and takes the logarithm of the softmax of each biased row the stable way: the row's
  largest entry is subtracted, and then the logarithm of the sum of the exponentials of what is left. Whatever the arrays
  hold when the computation starts, the output array ends holding that function of them, row by row.
-/
import proofs.«110577_j34677565948890_1_alg».proof.Proof.Gen.KernelIdeal.Frame
import proofs.«110577_j34677565948890_1_alg».proof.Proof.Spec
import proofs.«110577_j34677565948890_1_alg».proof.Proof.LibRowReduce
import proofs.«110577_j34677565948890_1_alg».proof.Proof.LibKeepdims
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

theorem zero2_r3 : (![0, 0] : Fin 2 → Nat) = fun _ => 0 := funext fun a => by fin_cases a <;> rfl
theorem zero1_r3 : (![0] : Fin 1 → Nat) = fun _ => 0 := funext fun a => by fin_cases a; rfl

/-- A length-5000 vector kept as a column and spread across the 7 columns reads, at (p, c), the vector at p. -/
theorem col_apply (w : FVec Ideal S5000 .f32) (p : Fin 5000) (c : Fin 7) :
    (broadcastTo S5000x7 (shapeCast S5000x1 w shapeCasts_S5000_S5000x1) broadcasts_S5000x1_S5000x7 (ix2 p c) : EReal) = w (ix1 p) := by
  rw [broadcastTo_a1_ab_apply, shapeCast_a_a1_apply]

/-- The same with the logarithm taken on the column. -/
theorem col_log_apply (w : FVec Ideal S5000 .f32) (p : Fin 5000) (c : Fin 7) :
    (broadcastTo S5000x7 (log (shapeCast S5000x1 w shapeCasts_S5000_S5000x1)) broadcasts_S5000x1_S5000x7 (ix2 p c) : EReal) = Ideal.log (w (ix1 p)) := by
  rw [broadcastTo_a1_ab_apply]
  show Ideal.log (shapeCast S5000x1 w shapeCasts_S5000_S5000x1 (ix2 p (0 : Fin 1))) = _
  rw [shapeCast_a_a1_apply]

/-- The bias vector as one row spread down the 5000 rows reads, at (p, c), the bias at c. -/
theorem row_apply (v0 : FVec Ideal S7 .f32) (p : Fin 5000) (c : Fin 7) :
    (broadcastTo S5000x7 (shapeCast S1x7 v0 shapeCasts_S7_S1x7) broadcasts_S1x7_S5000x7 (ix2 p c) : EReal) = v0 (ix1 c) := by
  rw [broadcastTo_1b_ab_apply, shapeCast_a_1a_apply]

/-- What a grid point stores at (p, q) of its block, in terms of its biased row p: the entry less the row's maximum,
    less the logarithm of the sum of the exponentials of the row's entries less the maximum. -/
theorem pay3_ix2 (v0 : FVec Ideal S7 .f32) (v4 : FVec Ideal S5000x7 .f32) (p : Fin 5000) (q : Fin 7) :
    k3_pay1 (F := Ideal) v0 v4 (ix2 p q)
      = ((v4 (ix2 p q) : EReal) + (v0 (ix1 q) : EReal)
          - (Finset.univ : Finset (Fin 7)).fold max (Ideal.ofBits .f32 0xFF800000#32) (fun j => (v4 (ix2 p j) : EReal) + (v0 (ix1 j) : EReal)))
        - Ideal.log (∑ j : Fin 7, Ideal.exp ((v4 (ix2 p j) : EReal) + (v0 (ix1 j) : EReal)
            - (Finset.univ : Finset (Fin 7)).fold max (Ideal.ofBits .f32 0xFF800000#32) (fun j => (v4 (ix2 p j) : EReal) + (v0 (ix1 j) : EReal)))) := by
  unfold k3_pay1
  simp only [shapeCast_self]
  generalize hz : addf v4 (broadcastTo S5000x7 (shapeCast S1x7 v0 shapeCasts_S7_S1x7) broadcasts_S1x7_S5000x7) = z
  have hzj : ∀ j : Fin 7, (z (ix2 p j) : EReal) = (v4 (ix2 p j) : EReal) + (v0 (ix1 j) : EReal) := fun j => by
    rw [← hz]
    show (v4 (ix2 p j) : EReal) + broadcastTo S5000x7 (shapeCast S1x7 v0 shapeCasts_S7_S1x7) broadcasts_S1x7_S5000x7 (ix2 p j) = _
    rw [row_apply]
  generalize hmx : multiReduction .maximumf [1] S5000 z 0xFF800000#32 reduces_S5000x7_S5000 (.inl rfl) rfl = mx
  have hmxp : (mx (ix1 p) : EReal) = (Finset.univ : Finset (Fin 7)).fold max (Ideal.ofBits .f32 0xFF800000#32) (fun j => (v4 (ix2 p j) : EReal) + (v0 (ix1 j) : EReal)) := by
    rw [← hmx]
    refine (multiReduction_max_row z 0xFF800000#32 reduces_S5000x7_S5000 (.inl rfl) rfl p).trans ?_
    exact congrArg (fun f => (Finset.univ : Finset (Fin 7)).fold max (Ideal.ofBits .f32 0xFF800000#32) f) (funext hzj)
  generalize hs : multiReduction .add [1] S5000 (exp (subf z (broadcastTo S5000x7 (shapeCast S5000x1 mx shapeCasts_S5000_S5000x1) broadcasts_S5000x1_S5000x7))) 0x00000000#32 reduces_S5000x7_S5000 (.inl rfl) rfl = s
  have hsp : (s (ix1 p) : EReal) = ∑ j : Fin 7, Ideal.exp ((v4 (ix2 p j) : EReal) + (v0 (ix1 j) : EReal) - (mx (ix1 p) : EReal)) := by
    rw [← hs]
    refine (multiReduction_add_row _ 0x00000000#32 reduces_S5000x7_S5000 (.inl rfl) rfl p).trans ?_
    refine Finset.sum_congr rfl fun j _ => ?_
    show Ideal.exp ((z (ix2 p j) : EReal) - broadcastTo S5000x7 (shapeCast S5000x1 mx shapeCasts_S5000_S5000x1) broadcasts_S5000x1_S5000x7 (ix2 p j)) = _
    rw [col_apply, hzj]
  show ((z (ix2 p q) : EReal) - broadcastTo S5000x7 (shapeCast S5000x1 mx shapeCasts_S5000_S5000x1) broadcasts_S5000x1_S5000x7 (ix2 p q))
      - broadcastTo S5000x7 (log (shapeCast S5000x1 s shapeCasts_S5000_S5000x1)) broadcasts_S5000x1_S5000x7 (ix2 p q) = _
  rw [col_apply, col_log_apply, hzj, hsp, hmxp]

/-- If the point's row p is row R of A and its bias is B, the stored entry is entry (R, q) of the logarithm of the
    softmax of A's biased rows. -/
theorem pay3_at (v0 : FVec Ideal S7 .f32) (v4 : FVec Ideal S5000x7 .f32)
    (A : S100000x7.Idx → EReal) (B : S7.Idx → EReal) (p : Fin 5000) (q : Fin 7) (R : Fin 100000)
    (hA : ∀ j : Fin 7, (v4 (ix2 p j) : EReal) = A (ix2 R j)) (hB : ∀ j : Fin 7, (v0 (ix1 j) : EReal) = B (ix1 j)) :
    k3_pay1 (F := Ideal) v0 v4 (ix2 p q) = biasLogSoftmax A B (ix2 R q) := by
  rw [pay3_ix2, biasLogSoftmax_ix2]
  unfold rowLse rowMax biased
  simp only [hA, hB]

/-- The printed index maps, decided over the grid: point t's input and output blocks are block t of rows, and the
    bias's block is the whole vector. -/
theorem idx3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- What point t writes back is block t of the logarithm of the softmax of the biased rows of what the computation finds. -/
theorem flushed3_eq (c : Dev nD) (t : Fin cfg3.N) :
    (dat3 V c).flushed 2 t = ((cfg3.win 2).blk t).view.read (Elt Ideal) (biasLogSoftmax (V c main_v58) (V c main_arg5)) := by
  show (cfg3.win 2).cut (grid3.coords t) ((dat3 V c).after 2 t) = _
  rw [after3_2]
  unfold out3_2
  rw [View.canon_unit_zero zero2_r3]
  simp only [View.ld_unit_zero (S := S5000x7) zero2_r3, View.ld_unit_zero (S := S7) zero1_r3]
  obtain ⟨e00, e01, e10, e20, e21⟩ := idx3 t
  have ht : t.val < 20 := by have h := t.isLt; have hN : cfg3.N = 20 := N_3; omega
  funext j
  obtain ⟨p, q, rfl⟩ : ∃ (p : Fin 5000) (q : Fin 7), j = ix2 p q := ⟨j 0, j 1, eq_ix2 j⟩
  show k3_pay1 (iblk3 V c 1 t) (iblk3 V c 0 t) (ix2 p q) = biasLogSoftmax (V c main_v58) (V c main_arg5) (((cfg3.win 2).blk t).view.emb (ix2 p q))
  have he : ((cfg3.win 2).blk t).view.emb (ix2 p q) = ix2 (⟨t.val * 5000 + p.val, by omega⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 7 + 1 * q.val = q.val; omega
  rw [he]
  refine pay3_at (iblk3 V c 1 t) (iblk3 V c 0 t) (V c main_v58) (V c main_arg5) p q _ (fun k => ?_) (fun k => ?_)
  · show V c main_v58 (((cfg3.win 0).blk t).view.emb (ix2 p k)) = V c main_v58 (ix2 (⟨t.val * 5000 + p.val, by omega⟩ : Fin 100000) k)
    refine congrArg (V c main_v58) ?_
    funext a; apply Fin.ext
    match a with
    | ⟨0, _⟩ => show win3_0.index t (0 : Fin 2) * 5000 + 1 * p.val = t.val * 5000 + p.val; omega
    | ⟨1, _⟩ => show win3_0.index t (1 : Fin 2) * 7 + 1 * k.val = k.val; omega
  · show V c main_arg5 (((cfg3.win 1).blk t).view.emb (ix1 k)) = V c main_arg5 (ix1 k)
    refine congrArg (V c main_arg5) ?_
    funext a; apply Fin.ext
    match a with
    | ⟨0, _⟩ => show win3_1.index t (0 : Fin 1) * 7 + 1 * k.val = k.val; omega

/-- An index of the output array is in point t's block iff each coordinate is in the block's range on its axis. -/
theorem mem_blk3 (t : Fin cfg3.N) (i : S100000x7.Idx) :
    i ∈ ((cfg3.win 2).blk t).view.set ↔ ∀ a : Fin 2, win3_2.index t a * S5000x7.size a ≤ (i a).val ∧ (i a).val < win3_2.index t a * S5000x7.size a + S5000x7.size a := by
  show i ∈ ((View.whole main_v59).slice (win3_2.rect t)).set ↔ _
  rw [View.set_slice_whole, Rect.mem_set_unit]
  exact Iff.rfl

/-- Row r of the output lies in the block of point r / 5000. -/
theorem cover3 (i : S100000x7.Idx) : ∃ t : Fin cfg3.N, (cfg3.win 2).flush t = true ∧ i ∈ ((cfg3.win 2).blk t).view.set := by
  have hi0 : (i 0).val < 100000 := (i 0).isLt
  have hi1 : (i 1).val < 7 := (i 1).isLt
  have hN : cfg3.N = 20 := N_3
  let t : Fin cfg3.N := ⟨(i 0).val / 5000, by rw [hN]; omega⟩
  obtain ⟨e00, e01, e10, e20, e21⟩ := idx3 t
  have htv : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 7 ≤ (i 1).val ∧ (i 1).val < win3_2.index t (1 : Fin 2) * 7 + 7; omega

/-- The output array after the fourth grid computation is the logarithm of the softmax of the biased rows it found. -/
theorem final3 (c : Dev nD) : (dat3 V c).arrAt 2 cfg3.N = biasLogSoftmax (V c main_v58) (V c main_arg5) :=
  (dat3 V c).arrAt_eq_of_cover 2 (biasLogSoftmax (V c main_v58) (V c main_arg5)) (fun t _ => flushed3_eq V c t) cover3

end

end Cert.KernelIdeal.Hand

end
-- ==== Proof.Glue.lean ====
/-
  The sparse part of a graph convolution, as functions of the edge list and of a dense array of node features. The
  edge list holds the sources in its first row and the targets in its second; every node gets a loop onto itself. A
  node's degree is the number of edges (loops included) that arrive at it; an edge's weight is the product of the
  inverse square roots of the degrees of its two endpoints (zero where a degree is not positive); and the aggregation
  of a feature array sends, along every edge, the source's feature row times the edge's weight, and sums at each
  target what arrives there. Both programs compute these by the same host operations, so here they are only named:
  nothing below looks inside a gather or a scattered sum.
-/
import proofs.«110577_j34677565948890_1_alg».proof.Proof.Gen.KernelIdeal

noncomputable section

namespace Cert.KernelIdeal.Hand

open Cert.KernelIdeal Cert.KernelIdeal.Facts₀ Cert.KernelIdeal.Facts Idealize.ShloMosaic

variable {F : FTy → Type} [FloatOps F]

/-- The edges' sources, then every node once (the loops). -/
def srcIdx (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The edges' targets, then every node once (the loops). -/
def dstIdx (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- A list of node numbers as a column of one-entry index vectors. -/
def colIdx (v : IVec S3300000 32) : IVec S3300000x1 32 :=
  broadcastInDim S3300000x1 ![0] bcast_S3300000_S3300000x1_0 v

/-- The same with a negative number counted from the end (the number of nodes added to it). -/
def wrapIdx (v : IVec S3300000 32) : IVec S3300000x1 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- A node's degree: one for every edge arriving at it, loops included. -/
def deg (e : IVec S2x3200000 32) : FVec F S100000 .f32 :=
  Host.scatterAdd scatter_S100000_S3300000x1_S3300000_n_0_0_1 (broadcastInDim S100000 ![] bcast_S_S100000 (constant S_ .f32 0x00000000#32))
    (colIdx (dstIdx e)) (broadcastInDim S3300000 ![] bcast_S_S3300000 (constant S_ .f32 0x3F800000#32))

/-- The inverse square root of the degree where it is positive, zero elsewhere. -/
def dinv (e : IVec S2x3200000 32) : FVec F S100000 .f32 :=
  select (cmpf .ogt (deg (F := F) e) (broadcastInDim S100000 ![] bcast_S_S100000 (constant S_ .f32 0x00000000#32)))
    (Host.rsqrt (deg e)) (broadcastInDim S100000 ![] bcast_S_S100000 (constant S_ .f32 0x00000000#32))

/-- An edge's weight: the product of the two endpoints' inverse square-root degrees. -/
def nrm (e : IVec S2x3200000 32) : FVec F S3300000 .f32 :=
  mulf (Host.gather gather_S100000_S3300000x1_S3300000_n_0_n_n_0_1_1 (dinv (F := F) e) (wrapIdx (srcIdx e)))
    (Host.gather gather_S100000_S3300000x1_S3300000_n_0_n_n_0_1_1 (dinv (F := F) e) (wrapIdx (dstIdx e)))

/-- The aggregation of a 16-column feature array: each target sums its incoming sources' rows times the edges' weights. -/
def agg16 (e : IVec S2x3200000 32) (h : FVec F S100000x16 .f32) : FVec F S100000x16 .f32 :=
  Host.scatterAdd scatter_S100000x16_S3300000x1_S3300000x16_1_0_0_1 (broadcastInDim S100000x16 ![] bcast_S_S100000x16 (constant S_ .f32 0x00000000#32))
    (colIdx (dstIdx e))
    (mulf (Host.gather gather_S100000x16_S3300000x1_S3300000x16_1_0_n_n_0_1_116 h (wrapIdx (srcIdx e)))
      (broadcastInDim S3300000x16 ![0, 1] bcast_S3300000x1_S3300000x16_0_1
        (broadcastInDim S3300000x1 ![0] bcast_S3300000_S3300000x1_0 (nrm (F := F) e))))

/-- The aggregation of a 7-column feature array. -/
def agg7 (e : IVec S2x3200000 32) (h : FVec F S100000x7 .f32) : FVec F S100000x7 .f32 :=
  Host.scatterAdd scatter_S100000x7_S3300000x1_S3300000x7_1_0_0_1 (broadcastInDim S100000x7 ![] bcast_S_S100000x7 (constant S_ .f32 0x00000000#32))
    (colIdx (dstIdx e))
    (mulf (Host.gather gather_S100000x7_S3300000x1_S3300000x7_1_0_n_n_0_1_17 h (wrapIdx (srcIdx e)))
      (broadcastInDim S3300000x7 ![0, 1] bcast_S3300000x1_S3300000x7_0_1
        (broadcastInDim S3300000x1 ![0] bcast_S3300000_S3300000x1_0 (nrm (F := F) e))))

end Cert.KernelIdeal.Hand

end
-- ==== Proof.Result.lean ====
/-
  The whole two-layer network as one function of the six argument arrays, over the extended reals: features times the
  first weights, aggregated over the edges, biased and clipped at zero; that times the second weights, aggregated again,
  biased; and the logarithm of the softmax of each row.
-/
import proofs.«110577_j34677565948890_1_alg».proof.Proof.Glue
import proofs.«110577_j34677565948890_1_alg».proof.Proof.Spec

noncomputable section

namespace Cert.KernelIdeal.Hand

open Cert.KernelIdeal Cert.Gcn Idealize.ShloMosaic

/-- The network's output array from node features x, edge list e, weights w1, w2 and biases b1, b2. -/
def result (x : S100000x128.Idx → EReal) (e : IVec S2x3200000 32) (w1 : S128x16.Idx → EReal) (b1 : S16.Idx → EReal)
    (w2 : S16x7.Idx → EReal) (b2 : S7.Idx → EReal) : S100000x7.Idx → EReal :=
  biasLogSoftmax (agg7 (F := Ideal) e (mm (biasRelu (agg16 (F := Ideal) e (mm x w1)) b1) w2)) b2

end Cert.KernelIdeal.Hand

end
-- ==== Proof.Fold.lean ====
/-
  The contents of the buffers at each boundary between the host stretches and the four grid computations of the
  idealized kernel, followed from the launch memory to the result. The edge list's source and target lists and the
  edges' weights are computed once, before the first grid computation, and nothing later writes them; each grid
  computation's output array is the dense stage of the network applied to the arrays it finds; and each host stretch
  between them is the aggregation over the edges. So the result buffer ends holding the network's function of the six
  arguments.
-/
import proofs.«110577_j34677565948890_1_alg».proof.Proof.Gen.KernelIdeal.Frame
import proofs.«110577_j34677565948890_1_alg».proof.Proof.Region0
import proofs.«110577_j34677565948890_1_alg».proof.Proof.Region1
import proofs.«110577_j34677565948890_1_alg».proof.Proof.Region2
import proofs.«110577_j34677565948890_1_alg».proof.Proof.Region3
import proofs.«110577_j34677565948890_1_alg».proof.Proof.Result
import Idealize.ShloMosaic.Lib.StableHlo.Run

set_option maxRecDepth 16384

noncomputable section

namespace Cert.KernelIdeal.Hand

open Cert.KernelIdeal Cert.KernelIdeal.Gen Cert.Gcn
open Idealize.ShloMosaic Idealize.ShloMosaic.TcCoe Idealize.SL.Sem Idealize.ShloMosaic.StableHlo

/-! ## The host stretches, each from any contents of the buffers it reads -/

/-- The degrees against zero, the comparison the inverse square roots are selected by. -/
def degPos (e : IVec S2x3200000 32) : IVec S100000 1 :=
  cmpf .ogt (deg (F := Ideal) e) (broadcastInDim S100000 ![] bcast_S_S100000 (constant S_ .f32 0x00000000#32))

section Stretches
variable (V : Valuation τ sig (Elt Ideal))

/-! The first stretch reads the edge list only. -/

set_option maxHeartbeats 2000000 in
theorem h0_main_v5 : after hostOps0 V (Proc.devRef .tc main_v5) = srcIdx (V (Proc.devRef .tc main_arg1)) := by
  after_results; rfl

set_option maxHeartbeats 2000000 in
theorem h0_main_v6 : after hostOps0 V (Proc.devRef .tc main_v6) = dstIdx (V (Proc.devRef .tc main_arg1)) := by
  after_results; rfl

set_option maxHeartbeats 4000000 in
theorem h0_main_v12 : after hostOps0 V (Proc.devRef .tc main_v12) = degPos (V (Proc.devRef .tc main_arg1)) := by
  after_results; rfl

set_option maxHeartbeats 4000000 in
theorem h0_main_v13 : after hostOps0 V (Proc.devRef .tc main_v13) = Host.rsqrt (deg (F := Ideal) (V (Proc.devRef .tc main_arg1))) := by
  after_results; rfl

set_option maxHeartbeats 2000000 in
theorem h0_main_cst_2 : after hostOps0 V (Proc.devRef .tc main_cst_2) = constant (F := Ideal) S_ .f32 0x00000000#32 := by
  after_results <;> rfl

set_option maxHeartbeats 2000000 in
theorem h0_keep_main_arg0 : after hostOps0 V (Proc.devRef .tc main_arg0) = V (Proc.devRef .tc main_arg0) := by
  after_results <;> rfl

set_option maxHeartbeats 2000000 in
theorem h0_keep_main_arg2 : after hostOps0 V (Proc.devRef .tc main_arg2) = V (Proc.devRef .tc main_arg2) := by
  after_results <;> rfl

set_option maxHeartbeats 2000000 in
theorem h0_keep_main_arg3 : after hostOps0 V (Proc.devRef .tc main_arg3) = V (Proc.devRef .tc main_arg3) := by
  after_results <;> rfl

set_option maxHeartbeats 2000000 in
theorem h0_keep_main_arg4 : after hostOps0 V (Proc.devRef .tc main_arg4) = V (Proc.devRef .tc main_arg4) := by
  after_results <;> rfl

set_option maxHeartbeats 2000000 in
theorem h0_keep_main_arg5 : after hostOps0 V (Proc.devRef .tc main_arg5) = V (Proc.devRef .tc main_arg5) := by
  after_results <;> rfl

/-! The second stretch selects the inverse square roots. -/

set_option maxHeartbeats 2000000 in
theorem h01_main_v14 (e : IVec S2x3200000 32) (h12 : V (Proc.devRef .tc main_v12) = degPos e)
    (h13 : V (Proc.devRef .tc main_v13) = Host.rsqrt (deg (F := Ideal) e)) (hc : V (Proc.devRef .tc main_cst_2) = constant (F := Ideal) S_ .f32 0x00000000#32) :
    after hostOps0_1 V (Proc.devRef .tc main_v14) = dinv (F := Ideal) e := by
  after_results
  rw [h12, h13, hc]
  simp only [TRef.toBuf, TRef.ofBuf]
  repeat rw [cast_eq]
  rfl

set_option maxHeartbeats 2000000 in
theorem h01_keep_main_v5 : after hostOps0_1 V (Proc.devRef .tc main_v5) = V (Proc.devRef .tc main_v5) := by
  after_results <;> rfl

set_option maxHeartbeats 2000000 in
theorem h01_keep_main_v6 : after hostOps0_1 V (Proc.devRef .tc main_v6) = V (Proc.devRef .tc main_v6) := by
  after_results <;> rfl

set_option maxHeartbeats 2000000 in
theorem h01_keep_main_arg0 : after hostOps0_1 V (Proc.devRef .tc main_arg0) = V (Proc.devRef .tc main_arg0) := by
  after_results <;> rfl

set_option maxHeartbeats 2000000 in
theorem h01_keep_main_arg2 : after hostOps0_1 V (Proc.devRef .tc main_arg2) = V (Proc.devRef .tc main_arg2) := by
  after_results <;> rfl

set_option maxHeartbeats 2000000 in
theorem h01_keep_main_arg3 : after hostOps0_1 V (Proc.devRef .tc main_arg3) = V (Proc.devRef .tc main_arg3) := by
  after_results <;> rfl

set_option maxHeartbeats 2000000 in
theorem h01_keep_main_arg4 : after hostOps0_1 V (Proc.devRef .tc main_arg4) = V (Proc.devRef .tc main_arg4) := by
  after_results <;> rfl

set_option maxHeartbeats 2000000 in
theorem h01_keep_main_arg5 : after hostOps0_1 V (Proc.devRef .tc main_arg5) = V (Proc.devRef .tc main_arg5) := by
  after_results <;> rfl

/-! The third stretch gathers them at the edges' endpoints and multiplies. -/

set_option maxHeartbeats 8000000 in
theorem h02_main_v29 (e : IVec S2x3200000 32) (h5 : V (Proc.devRef .tc main_v5) = srcIdx e) (h6 : V (Proc.devRef .tc main_v6) = dstIdx e)
    (h14 : V (Proc.devRef .tc main_v14) = dinv (F := Ideal) e) :
    after hostOps0_2 V (Proc.devRef .tc main_v29) = nrm (F := Ideal) e := by
  after_results_simp
  rw [h5, h6, h14]
  rfl

set_option maxHeartbeats 4000000 in
theorem h02_keep_main_v5 : after hostOps0_2 V (Proc.devRef .tc main_v5) = V (Proc.devRef .tc main_v5) := by
  after_results <;> rfl

set_option maxHeartbeats 4000000 in
theorem h02_keep_main_v6 : after hostOps0_2 V (Proc.devRef .tc main_v6) = V (Proc.devRef .tc main_v6) := by
  after_results <;> rfl

set_option maxHeartbeats 4000000 in
theorem h02_keep_main_arg0 : after hostOps0_2 V (Proc.devRef .tc main_arg0) = V (Proc.devRef .tc main_arg0) := by
  after_results <;> rfl

set_option maxHeartbeats 4000000 in
theorem h02_keep_main_arg2 : after hostOps0_2 V (Proc.devRef .tc main_arg2) = V (Proc.devRef .tc main_arg2) := by
  after_results <;> rfl

set_option maxHeartbeats 4000000 in
theorem h02_keep_main_arg3 : after hostOps0_2 V (Proc.devRef .tc main_arg3) = V (Proc.devRef .tc main_arg3) := by
  after_results <;> rfl

set_option maxHeartbeats 4000000 in
theorem h02_keep_main_arg4 : after hostOps0_2 V (Proc.devRef .tc main_arg4) = V (Proc.devRef .tc main_arg4) := by
  after_results <;> rfl

set_option maxHeartbeats 4000000 in
theorem h02_keep_main_arg5 : after hostOps0_2 V (Proc.devRef .tc main_arg5) = V (Proc.devRef .tc main_arg5) := by
  after_results <;> rfl

/-! The stretch after the first grid computation aggregates its output over the edges. -/

set_option maxHeartbeats 8000000 in
theorem h1_main_v43 (e : IVec S2x3200000 32) (h : FVec Ideal S100000x16 .f32) (h5 : V (Proc.devRef .tc main_v5) = srcIdx e) (h6 : V (Proc.devRef .tc main_v6) = dstIdx e)
    (h29 : V (Proc.devRef .tc main_v29) = nrm (F := Ideal) e) (h30 : V (Proc.devRef .tc main_v30) = h) :
    after hostOps1 V (Proc.devRef .tc main_v43) = agg16 (F := Ideal) e h := by
  after_results_simp
  rw [h5, h6, h29, h30]
  rfl

set_option maxHeartbeats 4000000 in
theorem h1_keep_main_v5 : after hostOps1 V (Proc.devRef .tc main_v5) = V (Proc.devRef .tc main_v5) := by
  after_results <;> rfl

set_option maxHeartbeats 4000000 in
theorem h1_keep_main_v6 : after hostOps1 V (Proc.devRef .tc main_v6) = V (Proc.devRef .tc main_v6) := by
  after_results <;> rfl

set_option maxHeartbeats 4000000 in
theorem h1_keep_main_v29 : after hostOps1 V (Proc.devRef .tc main_v29) = V (Proc.devRef .tc main_v29) := by
  after_results <;> rfl

set_option maxHeartbeats 4000000 in
theorem h1_keep_main_arg3 : after hostOps1 V (Proc.devRef .tc main_arg3) = V (Proc.devRef .tc main_arg3) := by
  after_results <;> rfl

set_option maxHeartbeats 4000000 in
theorem h1_keep_main_arg4 : after hostOps1 V (Proc.devRef .tc main_arg4) = V (Proc.devRef .tc main_arg4) := by
  after_results <;> rfl

set_option maxHeartbeats 4000000 in
theorem h1_keep_main_arg5 : after hostOps1 V (Proc.devRef .tc main_arg5) = V (Proc.devRef .tc main_arg5) := by
  after_results <;> rfl

/-! The stretch after the third grid computation aggregates its output over the edges. -/

set_option maxHeartbeats 8000000 in
theorem h3_main_v58 (e : IVec S2x3200000 32) (h : FVec Ideal S100000x7 .f32) (h5 : V (Proc.devRef .tc main_v5) = srcIdx e) (h6 : V (Proc.devRef .tc main_v6) = dstIdx e)
    (h29 : V (Proc.devRef .tc main_v29) = nrm (F := Ideal) e) (h45 : V (Proc.devRef .tc main_v45) = h) :
    after hostOps3 V (Proc.devRef .tc main_v58) = agg7 (F := Ideal) e h := by
  after_results_simp
  rw [h5, h6, h29, h45]
  rfl

set_option maxHeartbeats 4000000 in
theorem h3_keep_main_arg5 : after hostOps3 V (Proc.devRef .tc main_arg5) = V (Proc.devRef .tc main_arg5) := by
  after_results <;> rfl

end Stretches

/-! ## The boundaries of the kernel's run -/

variable (m : (ℓ : Loc nD τ sig) → Buf (Elt Ideal) ℓ) (ρ : Dev nD → PrngReg)

abbrev aX (c : Dev nD) : S100000x128.Idx → EReal := m ((c : Thread nD τ).loc main_arg0)
abbrev aE (c : Dev nD) : IVec S2x3200000 32 := m ((c : Thread nD τ).loc main_arg1)
abbrev aW1 (c : Dev nD) : S128x16.Idx → EReal := m ((c : Thread nD τ).loc main_arg2)
abbrev aB1 (c : Dev nD) : S16.Idx → EReal := m ((c : Thread nD τ).loc main_arg3)
abbrev aW2 (c : Dev nD) : S16x7.Idx → EReal := m ((c : Thread nD τ).loc main_arg4)
abbrev aB2 (c : Dev nD) : S7.Idx → EReal := m ((c : Thread nD τ).loc main_arg5)

/-! ### Before the first grid computation -/

theorem W1_main_v5 (c : Dev nD) : W1 m ρ c (Proc.devRef .tc main_v5) = srcIdx (aE m c) :=
  h0_main_v5 (W0 m ρ c)

theorem W1_main_v6 (c : Dev nD) : W1 m ρ c (Proc.devRef .tc main_v6) = dstIdx (aE m c) :=
  h0_main_v6 (W0 m ρ c)

theorem W1_main_v12 (c : Dev nD) : W1 m ρ c (Proc.devRef .tc main_v12) = degPos (aE m c) :=
  h0_main_v12 (W0 m ρ c)

theorem W1_main_v13 (c : Dev nD) : W1 m ρ c (Proc.devRef .tc main_v13) = Host.rsqrt (deg (F := Ideal) (aE m c)) :=
  h0_main_v13 (W0 m ρ c)

theorem W1_main_cst_2 (c : Dev nD) : W1 m ρ c (Proc.devRef .tc main_cst_2) = constant (F := Ideal) S_ .f32 0x00000000#32 :=
  h0_main_cst_2 (W0 m ρ c)

theorem W1_main_arg0 (c : Dev nD) : W1 m ρ c (Proc.devRef .tc main_arg0) = aX m c :=
  h0_keep_main_arg0 (W0 m ρ c)

theorem W1_main_arg2 (c : Dev nD) : W1 m ρ c (Proc.devRef .tc main_arg2) = aW1 m c :=
  h0_keep_main_arg2 (W0 m ρ c)

theorem W1_main_arg3 (c : Dev nD) : W1 m ρ c (Proc.devRef .tc main_arg3) = aB1 m c :=
  h0_keep_main_arg3 (W0 m ρ c)

theorem W1_main_arg4 (c : Dev nD) : W1 m ρ c (Proc.devRef .tc main_arg4) = aW2 m c :=
  h0_keep_main_arg4 (W0 m ρ c)

theorem W1_main_arg5 (c : Dev nD) : W1 m ρ c (Proc.devRef .tc main_arg5) = aB2 m c :=
  h0_keep_main_arg5 (W0 m ρ c)

theorem W2_main_v14 (c : Dev nD) : W2 m ρ c (Proc.devRef .tc main_v14) = dinv (F := Ideal) (aE m c) :=
  h01_main_v14 (W1 m ρ c) (aE m c) (W1_main_v12 m ρ c) (W1_main_v13 m ρ c) (W1_main_cst_2 m ρ c)

theorem W2_main_v5 (c : Dev nD) : W2 m ρ c (Proc.devRef .tc main_v5) = srcIdx (aE m c) :=
  (h01_keep_main_v5 (W1 m ρ c)).trans (W1_main_v5 m ρ c)

theorem W2_main_v6 (c : Dev nD) : W2 m ρ c (Proc.devRef .tc main_v6) = dstIdx (aE m c) :=
  (h01_keep_main_v6 (W1 m ρ c)).trans (W1_main_v6 m ρ c)

theorem W2_main_arg0 (c : Dev nD) : W2 m ρ c (Proc.devRef .tc main_arg0) = aX m c :=
  (h01_keep_main_arg0 (W1 m ρ c)).trans (W1_main_arg0 m ρ c)

theorem W2_main_arg2 (c : Dev nD) : W2 m ρ c (Proc.devRef .tc main_arg2) = aW1 m c :=
  (h01_keep_main_arg2 (W1 m ρ c)).trans (W1_main_arg2 m ρ c)

theorem W2_main_arg3 (c : Dev nD) : W2 m ρ c (Proc.devRef .tc main_arg3) = aB1 m c :=
  (h01_keep_main_arg3 (W1 m ρ c)).trans (W1_main_arg3 m ρ c)

theorem W2_main_arg4 (c : Dev nD) : W2 m ρ c (Proc.devRef .tc main_arg4) = aW2 m c :=
  (h01_keep_main_arg4 (W1 m ρ c)).trans (W1_main_arg4 m ρ c)

theorem W2_main_arg5 (c : Dev nD) : W2 m ρ c (Proc.devRef .tc main_arg5) = aB2 m c :=
  (h01_keep_main_arg5 (W1 m ρ c)).trans (W1_main_arg5 m ρ c)

theorem W3_main_v29 (c : Dev nD) : W3 m ρ c (Proc.devRef .tc main_v29) = nrm (F := Ideal) (aE m c) :=
  h02_main_v29 (W2 m ρ c) (aE m c) (W2_main_v5 m ρ c) (W2_main_v6 m ρ c) (W2_main_v14 m ρ c)

theorem W3_main_v5 (c : Dev nD) : W3 m ρ c (Proc.devRef .tc main_v5) = srcIdx (aE m c) :=
  (h02_keep_main_v5 (W2 m ρ c)).trans (W2_main_v5 m ρ c)

theorem W3_main_v6 (c : Dev nD) : W3 m ρ c (Proc.devRef .tc main_v6) = dstIdx (aE m c) :=
  (h02_keep_main_v6 (W2 m ρ c)).trans (W2_main_v6 m ρ c)

theorem W3_main_arg0 (c : Dev nD) : W3 m ρ c (Proc.devRef .tc main_arg0) = aX m c :=
  (h02_keep_main_arg0 (W2 m ρ c)).trans (W2_main_arg0 m ρ c)

theorem W3_main_arg2 (c : Dev nD) : W3 m ρ c (Proc.devRef .tc main_arg2) = aW1 m c :=
  (h02_keep_main_arg2 (W2 m ρ c)).trans (W2_main_arg2 m ρ c)

theorem W3_main_arg3 (c : Dev nD) : W3 m ρ c (Proc.devRef .tc main_arg3) = aB1 m c :=
  (h02_keep_main_arg3 (W2 m ρ c)).trans (W2_main_arg3 m ρ c)

theorem W3_main_arg4 (c : Dev nD) : W3 m ρ c (Proc.devRef .tc main_arg4) = aW2 m c :=
  (h02_keep_main_arg4 (W2 m ρ c)).trans (W2_main_arg4 m ρ c)

theorem W3_main_arg5 (c : Dev nD) : W3 m ρ c (Proc.devRef .tc main_arg5) = aB2 m c :=
  (h02_keep_main_arg5 (W2 m ρ c)).trans (W2_main_arg5 m ρ c)

/-! ### After the first grid computation -/

theorem W4_main_v5 (c : Dev nD) : W4 m ρ c (Proc.devRef .tc main_v5) = srcIdx (aE m c) :=
  (W4_of_ne m ρ c main_v5 (by decide)).trans (W3_main_v5 m ρ c)

theorem W4_main_v6 (c : Dev nD) : W4 m ρ c (Proc.devRef .tc main_v6) = dstIdx (aE m c) :=
  (W4_of_ne m ρ c main_v6 (by decide)).trans (W3_main_v6 m ρ c)

theorem W4_main_v29 (c : Dev nD) : W4 m ρ c (Proc.devRef .tc main_v29) = nrm (F := Ideal) (aE m c) :=
  (W4_of_ne m ρ c main_v29 (by decide)).trans (W3_main_v29 m ρ c)

theorem W4_main_arg3 (c : Dev nD) : W4 m ρ c (Proc.devRef .tc main_arg3) = aB1 m c :=
  (W4_of_ne m ρ c main_arg3 (by decide)).trans (W3_main_arg3 m ρ c)

theorem W4_main_arg4 (c : Dev nD) : W4 m ρ c (Proc.devRef .tc main_arg4) = aW2 m c :=
  (W4_of_ne m ρ c main_arg4 (by decide)).trans (W3_main_arg4 m ρ c)

theorem W4_main_arg5 (c : Dev nD) : W4 m ρ c (Proc.devRef .tc main_arg5) = aB2 m c :=
  (W4_of_ne m ρ c main_arg5 (by decide)).trans (W3_main_arg5 m ρ c)

/-- The first grid computation leaves the product of the features with the first weights. -/
theorem W4_main_v30 (c : Dev nD) : W4 m ρ c (Proc.devRef .tc main_v30) = mm (aX m c) (aW1 m c) :=
  (W4_arr m ρ c 2).trans ((final0 (V3 m ρ) c).trans (congrArg₂ mm (W3_main_arg0 m ρ c) (W3_main_arg2 m ρ c)))

/-! ### After the first aggregation -/

/-- The host stretch after it aggregates that product over the edges. -/
theorem W5_main_v43 (c : Dev nD) : W5 m ρ c (Proc.devRef .tc main_v43) = agg16 (F := Ideal) (aE m c) (mm (aX m c) (aW1 m c)) :=
  h1_main_v43 (W4 m ρ c) (aE m c) _ (W4_main_v5 m ρ c) (W4_main_v6 m ρ c) (W4_main_v29 m ρ c) (W4_main_v30 m ρ c)

theorem W5_main_v5 (c : Dev nD) : W5 m ρ c (Proc.devRef .tc main_v5) = srcIdx (aE m c) :=
  (h1_keep_main_v5 (W4 m ρ c)).trans (W4_main_v5 m ρ c)

theorem W5_main_v6 (c : Dev nD) : W5 m ρ c (Proc.devRef .tc main_v6) = dstIdx (aE m c) :=
  (h1_keep_main_v6 (W4 m ρ c)).trans (W4_main_v6 m ρ c)

theorem W5_main_v29 (c : Dev nD) : W5 m ρ c (Proc.devRef .tc main_v29) = nrm (F := Ideal) (aE m c) :=
  (h1_keep_main_v29 (W4 m ρ c)).trans (W4_main_v29 m ρ c)

theorem W5_main_arg3 (c : Dev nD) : W5 m ρ c (Proc.devRef .tc main_arg3) = aB1 m c :=
  (h1_keep_main_arg3 (W4 m ρ c)).trans (W4_main_arg3 m ρ c)

theorem W5_main_arg4 (c : Dev nD) : W5 m ρ c (Proc.devRef .tc main_arg4) = aW2 m c :=
  (h1_keep_main_arg4 (W4 m ρ c)).trans (W4_main_arg4 m ρ c)

theorem W5_main_arg5 (c : Dev nD) : W5 m ρ c (Proc.devRef .tc main_arg5) = aB2 m c :=
  (h1_keep_main_arg5 (W4 m ρ c)).trans (W4_main_arg5 m ρ c)

/-! ### After the second and third grid computations -/

theorem W6_main_v5 (c : Dev nD) : W6 m ρ c (Proc.devRef .tc main_v5) = srcIdx (aE m c) :=
  (W6_of_ne m ρ c main_v5 (by decide)).trans (W5_main_v5 m ρ c)

theorem W6_main_v6 (c : Dev nD) : W6 m ρ c (Proc.devRef .tc main_v6) = dstIdx (aE m c) :=
  (W6_of_ne m ρ c main_v6 (by decide)).trans (W5_main_v6 m ρ c)

theorem W6_main_v29 (c : Dev nD) : W6 m ρ c (Proc.devRef .tc main_v29) = nrm (F := Ideal) (aE m c) :=
  (W6_of_ne m ρ c main_v29 (by decide)).trans (W5_main_v29 m ρ c)

theorem W6_main_arg4 (c : Dev nD) : W6 m ρ c (Proc.devRef .tc main_arg4) = aW2 m c :=
  (W6_of_ne m ρ c main_arg4 (by decide)).trans (W5_main_arg4 m ρ c)

theorem W6_main_arg5 (c : Dev nD) : W6 m ρ c (Proc.devRef .tc main_arg5) = aB2 m c :=
  (W6_of_ne m ρ c main_arg5 (by decide)).trans (W5_main_arg5 m ρ c)

/-- The second grid computation leaves the aggregated array biased and clipped at zero. -/
theorem W6_main_v44 (c : Dev nD) : W6 m ρ c (Proc.devRef .tc main_v44) = biasRelu (agg16 (F := Ideal) (aE m c) (mm (aX m c) (aW1 m c))) (aB1 m c) :=
  (W6_arr m ρ c 2).trans ((final1 (V5 m ρ) c).trans (congrArg₂ biasRelu (W5_main_v43 m ρ c) (W5_main_arg3 m ρ c)))

theorem W7_main_v5 (c : Dev nD) : W7 m ρ c (Proc.devRef .tc main_v5) = srcIdx (aE m c) :=
  (W7_of_ne m ρ c main_v5 (by decide)).trans (W6_main_v5 m ρ c)

theorem W7_main_v6 (c : Dev nD) : W7 m ρ c (Proc.devRef .tc main_v6) = dstIdx (aE m c) :=
  (W7_of_ne m ρ c main_v6 (by decide)).trans (W6_main_v6 m ρ c)

theorem W7_main_v29 (c : Dev nD) : W7 m ρ c (Proc.devRef .tc main_v29) = nrm (F := Ideal) (aE m c) :=
  (W7_of_ne m ρ c main_v29 (by decide)).trans (W6_main_v29 m ρ c)

theorem W7_main_arg5 (c : Dev nD) : W7 m ρ c (Proc.devRef .tc main_arg5) = aB2 m c :=
  (W7_of_ne m ρ c main_arg5 (by decide)).trans (W6_main_arg5 m ρ c)

/-- The third grid computation leaves that array's product with the second weights. -/
theorem W7_main_v45 (c : Dev nD) : W7 m ρ c (Proc.devRef .tc main_v45) = mm (biasRelu (agg16 (F := Ideal) (aE m c) (mm (aX m c) (aW1 m c))) (aB1 m c)) (aW2 m c) :=
  (W7_arr m ρ c 2).trans ((final2 (V6 m ρ) c).trans (congrArg₂ mm (W6_main_v44 m ρ c) (W6_main_arg4 m ρ c)))

/-! ### After the second aggregation, and the result -/

/-- The last host stretch aggregates that product over the edges. -/
theorem W8_main_v58 (c : Dev nD) : W8 m ρ c (Proc.devRef .tc main_v58) = agg7 (F := Ideal) (aE m c) (mm (biasRelu (agg16 (F := Ideal) (aE m c) (mm (aX m c) (aW1 m c))) (aB1 m c)) (aW2 m c)) :=
  h3_main_v58 (W7 m ρ c) (aE m c) _ (W7_main_v5 m ρ c) (W7_main_v6 m ρ c) (W7_main_v29 m ρ c) (W7_main_v45 m ρ c)

theorem W8_main_arg5 (c : Dev nD) : W8 m ρ c (Proc.devRef .tc main_arg5) = aB2 m c :=
  (h3_keep_main_arg5 (W7 m ρ c)).trans (W7_main_arg5 m ρ c)

/-- The fourth grid computation leaves the logarithm of the softmax of the biased rows: the result buffer ends holding the
    network's function of the six arguments. -/
theorem W9_main_v59 (c : Dev nD) :
    W9 m ρ c (Proc.devRef .tc main_v59) = result (aX m c) (aE m c) (aW1 m c) (aB1 m c) (aW2 m c) (aB2 m c) :=
  (W9_arr m ρ c 2).trans ((final3 (V8 m ρ) c).trans (congrArg₂ biasLogSoftmax (W8_main_v58 m ρ c) (W8_main_arg5 m ρ c)))

end Cert.KernelIdeal.Hand

end
-- ==== Proof.RefGlue.lean ====
/-
  The sparse part of a graph convolution once more, spelt over the reference program's own shapes and dimension
  records: sources and targets with the loops appended, degrees, the edges' weights, and the two aggregations — the
  same host operations, in the same order, as in the kernel's host stretches.
-/
import proofs.«110577_j34677565948890_1_alg».proof.Proof.Gen.ReferenceIdeal

noncomputable section

namespace Cert.ReferenceIdeal.Hand

open Cert.ReferenceIdeal Cert.ReferenceIdeal.Facts₀ Cert.ReferenceIdeal.Facts Idealize.ShloMosaic

variable {F : FTy → Type} [FloatOps F]

/-- The edges' sources, then every node once (the loops). -/
def srcIdx (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The edges' targets, then every node once (the loops). -/
def dstIdx (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- A list of node numbers as a column of one-entry index vectors. -/
def colIdx (v : IVec S3300000 32) : IVec S3300000x1 32 :=
  broadcastInDim S3300000x1 ![0] bcast_S3300000_S3300000x1_0 v

/-- The same with a negative number counted from the end (the number of nodes added to it). -/
def wrapIdx (v : IVec S3300000 32) : IVec S3300000x1 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- A node's degree: one for every edge arriving at it, loops included. -/
def deg (e : IVec S2x3200000 32) : FVec F S100000 .f32 :=
  Host.scatterAdd scatter_S100000_S3300000x1_S3300000_n_0_0_1 (broadcastInDim S100000 ![] bcast_S_S100000 (constant S_ .f32 0x00000000#32))
    (colIdx (dstIdx e)) (broadcastInDim S3300000 ![] bcast_S_S3300000 (constant S_ .f32 0x3F800000#32))

/-- The inverse square root of the degree where it is positive, zero elsewhere. -/
def dinv (e : IVec S2x3200000 32) : FVec F S100000 .f32 :=
  select (cmpf .ogt (deg (F := F) e) (broadcastInDim S100000 ![] bcast_S_S100000 (constant S_ .f32 0x00000000#32)))
    (Host.rsqrt (deg e)) (broadcastInDim S100000 ![] bcast_S_S100000 (constant S_ .f32 0x00000000#32))

/-- An edge's weight: the product of the two endpoints' inverse square-root degrees. -/
def nrm (e : IVec S2x3200000 32) : FVec F S3300000 .f32 :=
  mulf (Host.gather gather_S100000_S3300000x1_S3300000_n_0_n_n_0_1_1 (dinv (F := F) e) (wrapIdx (srcIdx e)))
    (Host.gather gather_S100000_S3300000x1_S3300000_n_0_n_n_0_1_1 (dinv (F := F) e) (wrapIdx (dstIdx e)))

/-- The aggregation of a 16-column feature array: each target sums its incoming sources' rows times the edges' weights. -/
def agg16 (e : IVec S2x3200000 32) (h : FVec F S100000x16 .f32) : FVec F S100000x16 .f32 :=
  Host.scatterAdd scatter_S100000x16_S3300000x1_S3300000x16_1_0_0_1 (broadcastInDim S100000x16 ![] bcast_S_S100000x16 (constant S_ .f32 0x00000000#32))
    (colIdx (dstIdx e))
    (mulf (Host.gather gather_S100000x16_S3300000x1_S3300000x16_1_0_n_n_0_1_116 h (wrapIdx (srcIdx e)))
      (broadcastInDim S3300000x16 ![0, 1] bcast_S3300000x1_S3300000x16_0_1
        (broadcastInDim S3300000x1 ![0] bcast_S3300000_S3300000x1_0 (nrm (F := F) e))))

/-- The aggregation of a 7-column feature array. -/
def agg7 (e : IVec S2x3200000 32) (h : FVec F S100000x7 .f32) : FVec F S100000x7 .f32 :=
  Host.scatterAdd scatter_S100000x7_S3300000x1_S3300000x7_1_0_0_1 (broadcastInDim S100000x7 ![] bcast_S_S100000x7 (constant S_ .f32 0x00000000#32))
    (colIdx (dstIdx e))
    (mulf (Host.gather gather_S100000x7_S3300000x1_S3300000x7_1_0_n_n_0_1_17 h (wrapIdx (srcIdx e)))
      (broadcastInDim S3300000x7 ![0, 1] bcast_S3300000x1_S3300000x7_0_1
        (broadcastInDim S3300000x1 ![0] bcast_S3300000_S3300000x1_0 (nrm (F := F) e))))

end Cert.ReferenceIdeal.Hand

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.RefStages.lean ====
/-
  The reference's dense stages, each equal as a whole array to the network's stage of Spec: its two matrix products
  (the host's contraction of the second axis of the left operand with the first of the right is, over the extended reals,
  the sum over the inner index); its bias and clipping at zero; and its logarithm of the softmax of the biased rows — the
  row's maximum is taken once more against minus infinity, which changes nothing, and the sum of the exponentials starts
  from a zero that adds nothing.
-/
import proofs.«110577_j34677565948890_1_alg».proof.Proof.Gen.ReferenceIdeal
import proofs.«110577_j34677565948890_1_alg».proof.Proof.Spec
import proofs.«110577_j34677565948890_1_alg».proof.Proof.LibDotIx2
import proofs.«110577_j34677565948890_1_alg».proof.Proof.LibRowReduce
import proofs.«110577_j34677565948890_1_alg».proof.Proof.LibBroadcastInDim

noncomputable section

open scoped BigOperators

namespace Cert.ReferenceIdeal.Hand

open Cert.ReferenceIdeal Cert.ReferenceIdeal.Facts₀ Cert.ReferenceIdeal.Facts Cert.Gcn
open Idealize.ShloMosaic Idealize.ShloMosaic.ValueIdx

variable {F : FTy → Type} [FloatOps F]

/-- The first product's dimension numbers are those of a plain 100000 x 128 by 128 x 16 product. -/
theorem plainR1 : PlainDot dot_S100000x128_S128x16_S100000x16_1_0_0_1_n_n where
  rank := rfl
  size := rfl
  l0 := fun j q => by
    unfold DotDims.lhsIdx
    rw [dif_neg (show ¬(0 : Fin S100000x128.rank) ∈ dot_S100000x128_S128x16_S100000x16_1_0_0_1_n_n.lhsBatch by decide), dif_pos (show (0 : Fin S100000x128.rank) ∈ dot_S100000x128_S128x16_S100000x16_1_0_0_1_n_n.lhsNonContracting by decide)]
    rfl
  l1 := fun j q => dot_S100000x128_S128x16_S100000x16_1_0_0_1_n_n.lhsIdx_val_of_single rfl j q
  r0 := fun j q => dot_S100000x128_S128x16_S100000x16_1_0_0_1_n_n.rhsIdx_val_of_single rfl j q
  r1 := fun j q => by
    unfold DotDims.rhsIdx
    rw [dif_neg (show ¬(1 : Fin S128x16.rank) ∈ dot_S100000x128_S128x16_S100000x16_1_0_0_1_n_n.rhsBatch by decide), dif_pos (show (1 : Fin S128x16.rank) ∈ dot_S100000x128_S128x16_S100000x16_1_0_0_1_n_n.rhsNonContracting by decide)]
    rfl

/-- The second product's dimension numbers are those of a plain 100000 x 16 by 16 x 7 product. -/
theorem plainR2 : PlainDot dot_S100000x16_S16x7_S100000x7_1_0_0_1_n_n where
  rank := rfl
  size := rfl
  l0 := fun j q => by
    unfold DotDims.lhsIdx
    rw [dif_neg (show ¬(0 : Fin S100000x16.rank) ∈ dot_S100000x16_S16x7_S100000x7_1_0_0_1_n_n.lhsBatch by decide), dif_pos (show (0 : Fin S100000x16.rank) ∈ dot_S100000x16_S16x7_S100000x7_1_0_0_1_n_n.lhsNonContracting by decide)]
    rfl
  l1 := fun j q => dot_S100000x16_S16x7_S100000x7_1_0_0_1_n_n.lhsIdx_val_of_single rfl j q
  r0 := fun j q => dot_S100000x16_S16x7_S100000x7_1_0_0_1_n_n.rhsIdx_val_of_single rfl j q
  r1 := fun j q => by
    unfold DotDims.rhsIdx
    rw [dif_neg (show ¬(1 : Fin S16x7.rank) ∈ dot_S100000x16_S16x7_S100000x7_1_0_0_1_n_n.rhsBatch by decide), dif_pos (show (1 : Fin S16x7.rank) ∈ dot_S100000x16_S16x7_S100000x7_1_0_0_1_n_n.rhsNonContracting by decide)]
    rfl

/-- The host's first product is the matrix product. -/
theorem dot1_eq (x : FVec Ideal S100000x128 .f32) (w : FVec Ideal S128x16 .f32) :
    Host.dotGeneral dot_S100000x128_S128x16_S100000x16_1_0_0_1_n_n none x w = mm x w := by
  funext i
  obtain ⟨r, c, rfl⟩ : ∃ (r : Fin 100000) (c : Fin 16), i = ix2 r c := ⟨i 0, i 1, eq_ix2 i⟩
  exact (dotGeneral_ix2_any plainR1 none .single x w r c).trans (mm_ix2 x w r c).symm

/-- The host's second product is the matrix product. -/
theorem dot2_eq (x : FVec Ideal S100000x16 .f32) (w : FVec Ideal S16x7 .f32) :
    Host.dotGeneral dot_S100000x16_S16x7_S100000x7_1_0_0_1_n_n none x w = mm x w := by
  funext i
  obtain ⟨r, c, rfl⟩ : ∃ (r : Fin 100000) (c : Fin 7), i = ix2 r c := ⟨i 0, i 1, eq_ix2 i⟩
  exact (dotGeneral_ix2_any plainR2 none .single x w r c).trans (mm_ix2 x w r c).symm

/-- The reference's first epilogue: the bias spread down the rows and added, then the maximum with zeros. -/
def hostRelu (A : FVec F S100000x16 .f32) (b : FVec F S16 .f32) : FVec F S100000x16 .f32 :=
  maximumf (addf A (broadcastInDim S100000x16 ![0, 1] bcast_S1x16_S100000x16_0_1 (broadcastInDim S1x16 ![1] bcast_S16_S1x16_1 b)))
    (broadcastInDim S100000x16 ![] bcast_S_S100000x16 (constant S_ .f32 0x00000000#32))

theorem hostRelu_eq (A : FVec Ideal S100000x16 .f32) (b : FVec Ideal S16 .f32) : hostRelu A b = biasRelu A b := by
  funext i
  obtain ⟨r, c, rfl⟩ : ∃ (r : Fin 100000) (c : Fin 16), i = ix2 r c := ⟨i 0, i 1, eq_ix2 i⟩
  rw [biasRelu_ix2]
  show max ((A (ix2 r c) : EReal) + (broadcastInDim S100000x16 ![0, 1] bcast_S1x16_S100000x16_0_1 (broadcastInDim S1x16 ![1] bcast_S16_S1x16_1 b) (ix2 r c) : EReal))
      (broadcastInDim S100000x16 ![] bcast_S_S100000x16 (constant (F := Ideal) S_ .f32 0x00000000#32) (ix2 r c) : EReal) = _
  rw [broadcastInDim_row_mat_apply, broadcastInDim_vec_row_apply, broadcastInDim_scalar_apply]
  rfl

/-- The second bias spread down the rows and added. -/
def hostBias7 (A : FVec F S100000x7 .f32) (b : FVec F S7 .f32) : FVec F S100000x7 .f32 :=
  addf A (broadcastInDim S100000x7 ![0, 1] bcast_S1x7_S100000x7_0_1 (broadcastInDim S1x7 ![1] bcast_S7_S1x7_1 b))

/-- Each row's maximum, as the reference takes it: the host's maximum over the row from minus infinity, and the maximum
    of that with minus infinity once more. -/
def hostMax (z : FVec F S100000x7 .f32) : FVec F S100000 .f32 :=
  maximumf (broadcastInDim S100000 ![] bcast_S_S100000 (constant S_ .f32 0xFF800000#32))
    (Host.reduce FloatOps.maximumf z (constant (F := F) S_ .f32 0xFF800000#32) reducesTo_S100000x7_S100000_d1 h_S_)

/-- The rows less their maxima. -/
def hostShift (z : FVec F S100000x7 .f32) : FVec F S100000x7 .f32 :=
  subf z (broadcastInDim S100000x7 ![0, 1] bcast_S100000x1_S100000x7_0_1 (broadcastInDim S100000x1 ![0] bcast_S100000_S100000x1_0 (hostMax z)))

/-- The reference's logarithm of the softmax of the rows. -/
def hostLsm (z : FVec F S100000x7 .f32) : FVec F S100000x7 .f32 :=
  subf (hostShift z) (broadcastInDim S100000x7 ![0, 1] bcast_S100000x1_S100000x7_0_1
    (Host.log (broadcastInDim S100000x1 ![0] bcast_S100000_S100000x1_0
      (Host.reduceAdd (Host.exp (hostShift z)) (constant (F := F) S_ .f32 0x00000000#32) reducesTo_S100000x7_S100000_d1 h_S_))))

theorem hostBias7_apply (A : FVec Ideal S100000x7 .f32) (b : FVec Ideal S7 .f32) (r : Fin 100000) (j : Fin 7) :
    (hostBias7 A b (ix2 r j) : EReal) = biased A b r j := by
  show (A (ix2 r j) : EReal) + (broadcastInDim S100000x7 ![0, 1] bcast_S1x7_S100000x7_0_1 (broadcastInDim S1x7 ![1] bcast_S7_S1x7_1 b) (ix2 r j) : EReal) = _
  rw [broadcastInDim_row_mat_apply, broadcastInDim_vec_row_apply]
  rfl

theorem hostMax_apply (A : FVec Ideal S100000x7 .f32) (b : FVec Ideal S7 .f32) (r : Fin 100000) :
    (hostMax (hostBias7 A b) (ix1 r) : EReal) = rowMax A b r := by
  unfold hostMax
  rw [maximumf_apply, broadcastInDim_scalar_apply, hostReduce_max_row reducesTo_S100000x7_S100000_d1 (by decide) (hostBias7 A b) _ h_S_ r]
  rw [constant_apply, constant_apply, max_fold_max_self]
  unfold rowMax
  exact congrArg (fun f => (Finset.univ : Finset (Fin 7)).fold max (Ideal.ofBits .f32 0xFF800000#32) f) (funext fun j => hostBias7_apply A b r j)

theorem hostShift_apply (A : FVec Ideal S100000x7 .f32) (b : FVec Ideal S7 .f32) (r : Fin 100000) (j : Fin 7) :
    (hostShift (hostBias7 A b) (ix2 r j) : EReal) = biased A b r j - rowMax A b r := by
  unfold hostShift
  rw [subf_apply, broadcastInDim_col_mat_apply, broadcastInDim_vec_col_apply, hostBias7_apply, hostMax_apply]

theorem hlog_apply {s : Shape} (x : FVec Ideal s .f32) (i : s.Idx) : (Host.log x i : EReal) = Ideal.log (x i) := rfl

theorem hexp_apply {s : Shape} (x : FVec Ideal s .f32) (i : s.Idx) : (Host.exp x i : EReal) = Ideal.exp (x i) := rfl

/-- The host's sum of a row from zero is the sum of the row's entries. -/
theorem hsum_apply (x : FVec Ideal S100000x7 .f32) (r : Fin 100000) :
    (Host.reduceAdd x (constant (F := Ideal) S_ .f32 0x00000000#32) reducesTo_S100000x7_S100000_d1 h_S_ (ix1 r) : EReal)
      = ∑ j : Fin 7, (x (ix2 r j) : EReal) := by
  unfold Host.reduceAdd
  rw [Ideal.hostReduceAdd_def, hostReduceAdd_row reducesTo_S100000x7_S100000_d1 (by decide), constant_apply, Ideal.ofBits_zero_f32, zero_add]

/-- The reference's last stage is the logarithm of the softmax of the biased rows. -/
theorem hostLsm_eq (A : FVec Ideal S100000x7 .f32) (b : FVec Ideal S7 .f32) : hostLsm (hostBias7 A b) = biasLogSoftmax A b := by
  funext i
  obtain ⟨r, c, rfl⟩ : ∃ (r : Fin 100000) (c : Fin 7), i = ix2 r c := ⟨i 0, i 1, eq_ix2 i⟩
  rw [biasLogSoftmax_ix2]
  unfold hostLsm
  rw [subf_apply, broadcastInDim_col_mat_apply, hostShift_apply, hlog_apply, broadcastInDim_vec_col_apply, hsum_apply]
  unfold rowLse
  refine congrArg (fun s => biased A b r c - rowMax A b r - Ideal.log s) (Finset.sum_congr rfl fun j _ => ?_)
  rw [hexp_apply, hostShift_apply]

end Cert.ReferenceIdeal.Hand

end
-- ==== Proof.RefRun.lean ====
/-
  The reference's run with its result named. Its host program is a straight line of 134 operations, followed here in
  seven stretches, each from any contents of the buffers it reads: the edge list's halves, the first product and the
  source and target lists; the edges' weights; the first aggregation, bias, clipping and the second product; the lists
  and the weights once more (the reference computes them per layer); the second aggregation and bias; and the logarithm of
  the softmax of the rows. Every weakly fair execution ends with the result at that composition of the six arguments, and
  the arguments unchanged.
-/
import proofs.«110577_j34677565948890_1_alg».proof.Proof.RefRunPatched
import proofs.«110577_j34677565948890_1_alg».proof.Proof.RefGlue
import proofs.«110577_j34677565948890_1_alg».proof.Proof.RefStages

noncomputable section

namespace Cert.ReferenceIdeal.Hand

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-- Running two lines one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## The line in seven stretches -/

/-- The two halves of the edge list, the first product, and the source and target lists with the loops. -/
abbrev opsS1 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg2 main_v4 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_v5 (iotaInDim S100000 32 0),
    binary main_v1 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- Degrees, their inverse square roots, and the edges' weights. -/
abbrev opsS2 : List (HloOp τ sig (Elt F)) :=
  [ nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v6 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v6 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v6 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- The first aggregation, the first bias and clipping, the second product. -/
abbrev opsS3 : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v6 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v6 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v6 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v4 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)) ]

/-- The source and target lists once more. -/
abbrev opsS4 : List (HloOp τ sig (Elt F)) :=
  [ nullary main_v49 (iotaInDim S100000 32 0),
    binary main_v1 main_v49 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v49 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- Degrees, inverse square roots and the edges' weights once more. -/
abbrev opsS5 : List (HloOp τ sig (Elt F)) :=
  [ nullary main_cst_9 (constant S_ .f32 0x3F800000#32),
    unary main_cst_9 main_v52 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S3300000x1 ![0] bcast_S3300000_S3300000x1_0 : (⟨S3300000, .i32⟩ : BufTy).Contents (Elt F) → (⟨S3300000x1, .i32⟩ : BufTy).Contents (Elt F)),
    ternary main_v53 main_v54 main_v52 main_v55 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S3300000 ![] bcast_S_S3300000 : (⟨S_, .i32⟩ : BufTy).Contents (Elt F) → (⟨S3300000, .i32⟩ : BufTy).Contents (Elt F)),
    binary main_v50 main_v60 main_v61 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v62 (broadcastInDim S3300000 ![] bcast_S_S3300000 : (⟨S_, .i32⟩ : BufTy).Contents (Elt F) → (⟨S3300000, .i32⟩ : BufTy).Contents (Elt F)),
    binary main_v50 main_v62 main_v63 (addi : (⟨S3300000, .i32⟩ : BufTy).Contents (Elt F) → (⟨S3300000, .i32⟩ : BufTy).Contents (Elt F) → (⟨S3300000, .i32⟩ : BufTy).Contents (Elt F)),
    ternary main_v61 main_v63 main_v50 main_v64 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v64 main_v65 (broadcastInDim S3300000x1 ![0] bcast_S3300000_S3300000x1_0 : (⟨S3300000, .i32⟩ : BufTy).Contents (Elt F) → (⟨S3300000x1, .i32⟩ : BufTy).Contents (Elt F)),
    binary main_v59 main_v65 main_v66 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v67 (broadcastInDim S3300000 ![] bcast_S_S3300000 : (⟨S_, .i32⟩ : BufTy).Contents (Elt F) → (⟨S3300000, .i32⟩ : BufTy).Contents (Elt F)),
    binary main_v51 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v69 (broadcastInDim S3300000 ![] bcast_S_S3300000 : (⟨S_, .i32⟩ : BufTy).Contents (Elt F) → (⟨S3300000, .i32⟩ : BufTy).Contents (Elt F)),
    binary main_v51 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v51 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v59 main_v72 main_v73 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v66 main_v73 main_v74 (mulf : (⟨S3300000, .f32⟩ : BufTy).Contents (Elt F) → (⟨S3300000, .f32⟩ : BufTy).Contents (Elt F) → (⟨S3300000, .f32⟩ : BufTy).Contents (Elt F)) ]

/-- The second aggregation and the second bias. -/
abbrev opsS6 : List (HloOp τ sig (Elt F)) :=
  [ nullary main_c_17 (constantI S_ 32 0#32),
    unary main_c_17 main_v75 (broadcastInDim S3300000 ![] bcast_S_S3300000 : (⟨S_, .i32⟩ : BufTy).Contents (Elt F) → (⟨S3300000, .i32⟩ : BufTy).Contents (Elt F)),
    binary main_v50 main_v75 main_v76 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v77 (broadcastInDim S3300000 ![] bcast_S_S3300000 : (⟨S_, .i32⟩ : BufTy).Contents (Elt F) → (⟨S3300000, .i32⟩ : BufTy).Contents (Elt F)),
    binary main_v50 main_v77 main_v78 (addi : (⟨S3300000, .i32⟩ : BufTy).Contents (Elt F) → (⟨S3300000, .i32⟩ : BufTy).Contents (Elt F) → (⟨S3300000, .i32⟩ : BufTy).Contents (Elt F)),
    ternary main_v76 main_v78 main_v50 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v79 main_v80 (broadcastInDim S3300000x1 ![0] bcast_S3300000_S3300000x1_0 : (⟨S3300000, .i32⟩ : BufTy).Contents (Elt F) → (⟨S3300000x1, .i32⟩ : BufTy).Contents (Elt F)),
    binary main_v48 main_v80 main_v81 ((fun x i => Host.gather gather_S100000x7_S3300000x1_S3300000x7_1_0_n_n_0_1_17 x i) : (⟨S100000x7, .f32⟩ : BufTy).Contents (Elt F) → (⟨S3300000x1, .i32⟩ : BufTy).Contents (Elt F) → (⟨S3300000x7, .f32⟩ : BufTy).Contents (Elt F)),
    unary main_v74 main_v82 (broadcastInDim S3300000x1 ![0] bcast_S3300000_S3300000x1_0 : (⟨S3300000, .f32⟩ : BufTy).Contents (Elt F) → (⟨S3300000x1, .f32⟩ : BufTy).Contents (Elt F)),
    unary main_v82 main_v83 (broadcastInDim S3300000x7 ![0, 1] bcast_S3300000x1_S3300000x7_0_1 : (⟨S3300000x1, .f32⟩ : BufTy).Contents (Elt F) → (⟨S3300000x7, .f32⟩ : BufTy).Contents (Elt F)),
    binary main_v81 main_v83 main_v84 (mulf : (⟨S3300000x7, .f32⟩ : BufTy).Contents (Elt F) → (⟨S3300000x7, .f32⟩ : BufTy).Contents (Elt F) → (⟨S3300000x7, .f32⟩ : BufTy).Contents (Elt F)),
    nullary main_cst_19 (constant S_ .f32 0x00000000#32),
    unary main_cst_19 main_v85 (broadcastInDim S100000x7 ![] bcast_S_S100000x7 : (⟨S_, .f32⟩ : BufTy).Contents (Elt F) → (⟨S100000x7, .f32⟩ : BufTy).Contents (Elt F)),
    unary main_v51 main_v86 (broadcastInDim S3300000x1 ![0] bcast_S3300000_S3300000x1_0 : (⟨S3300000, .i32⟩ : BufTy).Contents (Elt F) → (⟨S3300000x1, .i32⟩ : BufTy).Contents (Elt F)),
    ternary main_v85 main_v86 main_v84 main_v87 ((fun x i u => Host.scatterAdd scatter_S100000x7_S3300000x1_S3300000x7_1_0_0_1 x i u) : (⟨S100000x7, .f32⟩ : BufTy).Contents (Elt F) → (⟨S3300000x1, .i32⟩ : BufTy).Contents (Elt F) → (⟨S3300000x7, .f32⟩ : BufTy).Contents (Elt F) → (⟨S100000x7, .f32⟩ : BufTy).Contents (Elt F)),
    unary main_arg5 main_v88 (broadcastInDim S1x7 ![1] bcast_S7_S1x7_1 : (⟨S7, .f32⟩ : BufTy).Contents (Elt F) → (⟨S1x7, .f32⟩ : BufTy).Contents (Elt F)),
    unary main_v88 main_v89 (broadcastInDim S100000x7 ![0, 1] bcast_S1x7_S100000x7_0_1 : (⟨S1x7, .f32⟩ : BufTy).Contents (Elt F) → (⟨S100000x7, .f32⟩ : BufTy).Contents (Elt F)),
    binary main_v87 main_v89 main_v90 (addf : (⟨S100000x7, .f32⟩ : BufTy).Contents (Elt F) → (⟨S100000x7, .f32⟩ : BufTy).Contents (Elt F) → (⟨S100000x7, .f32⟩ : BufTy).Contents (Elt F)) ]

/-- The logarithm of the softmax of the rows. -/
abbrev opsS7 : List (HloOp τ sig (Elt F)) :=
  [ TRef.nullary (TRef.of (T := ⟨S_, .f32⟩) main_call3_cst) (constant S_ .f32 0xFF800000#32),
    TRef.binary (TRef.of (T := ⟨S100000x7, .f32⟩) main_v90) (TRef.of (T := ⟨S_, .f32⟩) main_call3_cst) (TRef.of (T := ⟨S100000, .f32⟩) main_call3_v0) (fun x v => Host.reduce FloatOps.maximumf x v reducesTo_S100000x7_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x7, .f32⟩) main_call3_v4) (broadcastInDim S100000x7 ![0, 1] bcast_S100000x1_S100000x7_0_1),
    TRef.binary (TRef.of (T := ⟨S100000x7, .f32⟩) main_v90) (TRef.of (T := ⟨S100000x7, .f32⟩) main_call3_v4) (TRef.of (T := ⟨S100000x7, .f32⟩) main_call3_v5) subf,
    TRef.unary (TRef.of (T := ⟨S100000x7, .f32⟩) main_call3_v5) (TRef.of (T := ⟨S100000x7, .f32⟩) main_call3_v6) Host.exp,
    TRef.nullary (TRef.of (T := ⟨S_, .f32⟩) main_call3_cst_1) (constant S_ .f32 0x00000000#32),
    TRef.binary (TRef.of (T := ⟨S100000x7, .f32⟩) main_call3_v6) (TRef.of (T := ⟨S_, .f32⟩) main_call3_cst_1) (TRef.of (T := ⟨S100000, .f32⟩) main_call3_v7) (fun x v => Host.reduceAdd x v reducesTo_S100000x7_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x7, .f32⟩) main_call3_v10) (broadcastInDim S100000x7 ![0, 1] bcast_S100000x1_S100000x7_0_1),
    TRef.binary (TRef.of (T := ⟨S100000x7, .f32⟩) main_call3_v5) (TRef.of (T := ⟨S100000x7, .f32⟩) main_call3_v10) (TRef.of (T := ⟨S100000x7, .f32⟩) main_v91) subf ]

set_option maxRecDepth 8192 in
theorem ops_split : (ops : List (HloOp τ sig (Elt F))) = opsS1 ++ (opsS2 ++ (opsS3 ++ (opsS4 ++ (opsS5 ++ (opsS6 ++ opsS7))))) := rfl

/-! ## What each stretch leaves, from any contents of what it reads -/

/-- The sources, as the first row of the edge list. -/
def srcHalf (e : IVec S2x3200000 32) : IVec S3200000 32 :=
  shapeCast S3200000 (extractStridedSlice S1x3200000 ![0, 0] e slices_S2x3200000_S1x3200000_0_0) shapeCasts_S1x3200000_S3200000

/-- The targets, as the second row of the edge list. -/
def dstHalf (e : IVec S2x3200000 32) : IVec S3200000 32 :=
  shapeCast S3200000 (extractStridedSlice S1x3200000 ![1, 0] e slices_S2x3200000_S1x3200000_1_0) shapeCasts_S1x3200000_S3200000

set_option maxHeartbeats 2000000 in
theorem s1_main_v1 (V : Valuation τ sig (Elt F)) (e : IVec S2x3200000 32) (h1 : V (Proc.devRef .tc main_arg1) = e) :
    after (opsS1 (F := F)) V (Proc.devRef .tc main_v1) = srcHalf e := by
  after_results
  rw [h1]
  try simp only [TRef.toBuf, TRef.ofBuf]
  repeat rw [cast_eq]
  all_goals rfl

set_option maxHeartbeats 2000000 in
theorem s1_main_v3 (V : Valuation τ sig (Elt F)) (e : IVec S2x3200000 32) (h1 : V (Proc.devRef .tc main_arg1) = e) :
    after (opsS1 (F := F)) V (Proc.devRef .tc main_v3) = dstHalf e := by
  after_results
  rw [h1]
  try simp only [TRef.toBuf, TRef.ofBuf]
  repeat rw [cast_eq]
  all_goals rfl

set_option maxHeartbeats 2000000 in
theorem s1_main_v4 (V : Valuation τ sig (Elt F)) (x : FVec F S100000x128 .f32) (w : FVec F S128x16 .f32) (h0 : V (Proc.devRef .tc main_arg0) = x) (h2 : V (Proc.devRef .tc main_arg2) = w) :
    after (opsS1 (F := F)) V (Proc.devRef .tc main_v4) = Host.dotGeneral dot_S100000x128_S128x16_S100000x16_1_0_0_1_n_n none x w := by
  after_results
  rw [h0, h2]
  try simp only [TRef.toBuf, TRef.ofBuf]
  repeat rw [cast_eq]
  all_goals rfl

set_option maxHeartbeats 2000000 in
theorem s1_main_v6 (V : Valuation τ sig (Elt F)) (e : IVec S2x3200000 32) (h1 : V (Proc.devRef .tc main_arg1) = e) :
    after (opsS1 (F := F)) V (Proc.devRef .tc main_v6) = srcIdx e := by
  after_results
  rw [h1]
  try simp only [TRef.toBuf, TRef.ofBuf]
  repeat rw [cast_eq]
  all_goals rfl

set_option maxHeartbeats 2000000 in
theorem s1_main_v7 (V : Valuation τ sig (Elt F)) (e : IVec S2x3200000 32) (h1 : V (Proc.devRef .tc main_arg1) = e) :
    after (opsS1 (F := F)) V (Proc.devRef .tc main_v7) = dstIdx e := by
  after_results
  rw [h1]
  try simp only [TRef.toBuf, TRef.ofBuf]
  repeat rw [cast_eq]
  all_goals rfl

set_option maxHeartbeats 2000000 in
theorem s1_keep_main_arg3 (V : Valuation τ sig (Elt F)) : after (opsS1 (F := F)) V (Proc.devRef .tc main_arg3) = V (Proc.devRef .tc main_arg3) := by
  after_results <;> rfl

set_option maxHeartbeats 2000000 in
theorem s1_keep_main_arg4 (V : Valuation τ sig (Elt F)) : after (opsS1 (F := F)) V (Proc.devRef .tc main_arg4) = V (Proc.devRef .tc main_arg4) := by
  after_results <;> rfl

set_option maxHeartbeats 2000000 in
theorem s1_keep_main_arg5 (V : Valuation τ sig (Elt F)) : after (opsS1 (F := F)) V (Proc.devRef .tc main_arg5) = V (Proc.devRef .tc main_arg5) := by
  after_results <;> rfl

set_option maxHeartbeats 8000000 in
theorem s2_main_v30 (V : Valuation τ sig (Elt F)) (e : IVec S2x3200000 32) (h6 : V (Proc.devRef .tc main_v6) = srcIdx e) (h7 : V (Proc.devRef .tc main_v7) = dstIdx e) :
    after (opsS2 (F := F)) V (Proc.devRef .tc main_v30) = nrm (F := F) e := by
  after_results_simp
  rw [h6, h7]
  try simp only [TRef.toBuf, TRef.ofBuf]
  repeat rw [cast_eq]
  all_goals rfl

set_option maxHeartbeats 4000000 in
theorem s2_keep_main_v1 (V : Valuation τ sig (Elt F)) : after (opsS2 (F := F)) V (Proc.devRef .tc main_v1) = V (Proc.devRef .tc main_v1) := by
  after_results_simp <;> rfl

set_option maxHeartbeats 4000000 in
theorem s2_keep_main_v3 (V : Valuation τ sig (Elt F)) : after (opsS2 (F := F)) V (Proc.devRef .tc main_v3) = V (Proc.devRef .tc main_v3) := by
  after_results_simp <;> rfl

set_option maxHeartbeats 4000000 in
theorem s2_keep_main_v4 (V : Valuation τ sig (Elt F)) : after (opsS2 (F := F)) V (Proc.devRef .tc main_v4) = V (Proc.devRef .tc main_v4) := by
  after_results_simp <;> rfl

set_option maxHeartbeats 4000000 in
theorem s2_keep_main_v6 (V : Valuation τ sig (Elt F)) : after (opsS2 (F := F)) V (Proc.devRef .tc main_v6) = V (Proc.devRef .tc main_v6) := by
  after_results_simp <;> rfl

set_option maxHeartbeats 4000000 in
theorem s2_keep_main_v7 (V : Valuation τ sig (Elt F)) : after (opsS2 (F := F)) V (Proc.devRef .tc main_v7) = V (Proc.devRef .tc main_v7) := by
  after_results_simp <;> rfl

set_option maxHeartbeats 4000000 in
theorem s2_keep_main_arg3 (V : Valuation τ sig (Elt F)) : after (opsS2 (F := F)) V (Proc.devRef .tc main_arg3) = V (Proc.devRef .tc main_arg3) := by
  after_results_simp <;> rfl

set_option maxHeartbeats 4000000 in
theorem s2_keep_main_arg4 (V : Valuation τ sig (Elt F)) : after (opsS2 (F := F)) V (Proc.devRef .tc main_arg4) = V (Proc.devRef .tc main_arg4) := by
  after_results_simp <;> rfl

set_option maxHeartbeats 4000000 in
theorem s2_keep_main_arg5 (V : Valuation τ sig (Elt F)) : after (opsS2 (F := F)) V (Proc.devRef .tc main_arg5) = V (Proc.devRef .tc main_arg5) := by
  after_results_simp <;> rfl

set_option maxHeartbeats 8000000 in
theorem s3_main_v48 (V : Valuation τ sig (Elt F)) (e : IVec S2x3200000 32) (h : FVec F S100000x16 .f32) (b1 : FVec F S16 .f32) (w2 : FVec F S16x7 .f32) (h6 : V (Proc.devRef .tc main_v6) = srcIdx e) (h7 : V (Proc.devRef .tc main_v7) = dstIdx e) (h4 : V (Proc.devRef .tc main_v4) = h) (h30 : V (Proc.devRef .tc main_v30) = nrm (F := F) e) (ha3 : V (Proc.devRef .tc main_arg3) = b1) (ha4 : V (Proc.devRef .tc main_arg4) = w2) :
    after (opsS3 (F := F)) V (Proc.devRef .tc main_v48) = Host.dotGeneral dot_S100000x16_S16x7_S100000x7_1_0_0_1_n_n none (hostRelu (agg16 (F := F) e h) b1) w2 := by
  after_results_simp
  rw [h6, h7, h4, h30, ha3, ha4]
  try simp only [TRef.toBuf, TRef.ofBuf]
  repeat rw [cast_eq]
  all_goals rfl

set_option maxHeartbeats 4000000 in
theorem s3_keep_main_v1 (V : Valuation τ sig (Elt F)) : after (opsS3 (F := F)) V (Proc.devRef .tc main_v1) = V (Proc.devRef .tc main_v1) := by
  after_results_simp <;> rfl

set_option maxHeartbeats 4000000 in
theorem s3_keep_main_v3 (V : Valuation τ sig (Elt F)) : after (opsS3 (F := F)) V (Proc.devRef .tc main_v3) = V (Proc.devRef .tc main_v3) := by
  after_results_simp <;> rfl

set_option maxHeartbeats 4000000 in
theorem s3_keep_main_arg5 (V : Valuation τ sig (Elt F)) : after (opsS3 (F := F)) V (Proc.devRef .tc main_arg5) = V (Proc.devRef .tc main_arg5) := by
  after_results_simp <;> rfl

set_option maxHeartbeats 2000000 in
theorem s4_main_v50 (V : Valuation τ sig (Elt F)) (e : IVec S2x3200000 32) (h1 : V (Proc.devRef .tc main_v1) = srcHalf e) :
    after (opsS4 (F := F)) V (Proc.devRef .tc main_v50) = srcIdx e := by
  after_results
  rw [h1]
  try simp only [TRef.toBuf, TRef.ofBuf]
  repeat rw [cast_eq]
  all_goals rfl

set_option maxHeartbeats 2000000 in
theorem s4_main_v51 (V : Valuation τ sig (Elt F)) (e : IVec S2x3200000 32) (h3 : V (Proc.devRef .tc main_v3) = dstHalf e) :
    after (opsS4 (F := F)) V (Proc.devRef .tc main_v51) = dstIdx e := by
  after_results
  rw [h3]
  try simp only [TRef.toBuf, TRef.ofBuf]
  repeat rw [cast_eq]
  all_goals rfl

set_option maxHeartbeats 2000000 in
theorem s4_keep_main_v48 (V : Valuation τ sig (Elt F)) : after (opsS4 (F := F)) V (Proc.devRef .tc main_v48) = V (Proc.devRef .tc main_v48) := by
  after_results <;> rfl

set_option maxHeartbeats 2000000 in
theorem s4_keep_main_arg5 (V : Valuation τ sig (Elt F)) : after (opsS4 (F := F)) V (Proc.devRef .tc main_arg5) = V (Proc.devRef .tc main_arg5) := by
  after_results <;> rfl

set_option maxHeartbeats 8000000 in
theorem s5_main_v74 (V : Valuation τ sig (Elt F)) (e : IVec S2x3200000 32) (h50 : V (Proc.devRef .tc main_v50) = srcIdx e) (h51 : V (Proc.devRef .tc main_v51) = dstIdx e) :
    after (opsS5 (F := F)) V (Proc.devRef .tc main_v74) = nrm (F := F) e := by
  after_results_simp
  rw [h50, h51]
  try simp only [TRef.toBuf, TRef.ofBuf]
  repeat rw [cast_eq]
  all_goals rfl

set_option maxHeartbeats 4000000 in
theorem s5_keep_main_v48 (V : Valuation τ sig (Elt F)) : after (opsS5 (F := F)) V (Proc.devRef .tc main_v48) = V (Proc.devRef .tc main_v48) := by
  after_results_simp <;> rfl

set_option maxHeartbeats 4000000 in
theorem s5_keep_main_v50 (V : Valuation τ sig (Elt F)) : after (opsS5 (F := F)) V (Proc.devRef .tc main_v50) = V (Proc.devRef .tc main_v50) := by
  after_results_simp <;> rfl

set_option maxHeartbeats 4000000 in
theorem s5_keep_main_v51 (V : Valuation τ sig (Elt F)) : after (opsS5 (F := F)) V (Proc.devRef .tc main_v51) = V (Proc.devRef .tc main_v51) := by
  after_results_simp <;> rfl

set_option maxHeartbeats 4000000 in
theorem s5_keep_main_arg5 (V : Valuation τ sig (Elt F)) : after (opsS5 (F := F)) V (Proc.devRef .tc main_arg5) = V (Proc.devRef .tc main_arg5) := by
  after_results_simp <;> rfl

set_option maxHeartbeats 8000000 in
theorem s6_main_v90 (V : Valuation τ sig (Elt F)) (e : IVec S2x3200000 32) (g : FVec F S100000x7 .f32) (b2 : FVec F S7 .f32) (h50 : V (Proc.devRef .tc main_v50) = srcIdx e) (h51 : V (Proc.devRef .tc main_v51) = dstIdx e) (h48 : V (Proc.devRef .tc main_v48) = g) (h74 : V (Proc.devRef .tc main_v74) = nrm (F := F) e) (ha5 : V (Proc.devRef .tc main_arg5) = b2) :
    after (opsS6 (F := F)) V (Proc.devRef .tc main_v90) = hostBias7 (agg7 (F := F) e g) b2 := by
  after_results_simp
  rw [h50, h51, h48, h74, ha5]
  try simp only [TRef.toBuf, TRef.ofBuf]
  repeat rw [cast_eq]
  all_goals rfl

set_option maxHeartbeats 8000000 in
theorem s7_main_v91 (V : Valuation τ sig (Elt F)) :
    after (opsS7 (F := F)) V (Proc.devRef .tc main_v91) = hostLsm (V (Proc.devRef .tc main_v90)) := by
  after_results_simp
  try simp only [TRef.toBuf, TRef.ofBuf]
  repeat rw [cast_eq]
  all_goals rfl

/-! ## The result as a function of the six arguments -/

variable (m : (ℓ : Loc nD τ sig) → Buf (Elt F) ℓ)

abbrev rX (c : Dev nD) : FVec F S100000x128 .f32 := m ((c.tc : Thread nD τ).loc main_arg0)
abbrev rE (c : Dev nD) : IVec S2x3200000 32 := m ((c.tc : Thread nD τ).loc main_arg1)
abbrev rW1 (c : Dev nD) : FVec F S128x16 .f32 := m ((c.tc : Thread nD τ).loc main_arg2)
abbrev rB1 (c : Dev nD) : FVec F S16 .f32 := m ((c.tc : Thread nD τ).loc main_arg3)
abbrev rW2 (c : Dev nD) : FVec F S16x7 .f32 := m ((c.tc : Thread nD τ).loc main_arg4)
abbrev rB2 (c : Dev nD) : FVec F S7 .f32 := m ((c.tc : Thread nD τ).loc main_arg5)

/-- The array the last stretch starts from. -/
def preLsm (c : Dev nD) : FVec F S100000x7 .f32 :=
  hostBias7 (agg7 (F := F) (rE m c) (Host.dotGeneral dot_S100000x16_S16x7_S100000x7_1_0_0_1_n_n none
      (hostRelu (agg16 (F := F) (rE m c) (Host.dotGeneral dot_S100000x128_S128x16_S100000x16_1_0_0_1_n_n none (rX m c) (rW1 m c))) (rB1 m c)) (rW2 m c))) (rB2 m c)

/-- The result after the whole line. -/
theorem result_eq (c : Dev nD) :
    after (ops (F := F)) (launchContents m c) (Proc.devRef .tc main_v91) = hostLsm (preLsm m c) := by
  rw [ops_split]
  simp only [after_append]
  have a0 : launchContents m c (Proc.devRef .tc main_arg0) = rX m c := rfl
  have a1 : launchContents m c (Proc.devRef .tc main_arg1) = rE m c := rfl
  have a2 : launchContents m c (Proc.devRef .tc main_arg2) = rW1 m c := rfl
  have a3 : launchContents m c (Proc.devRef .tc main_arg3) = rB1 m c := rfl
  have a4 : launchContents m c (Proc.devRef .tc main_arg4) = rW2 m c := rfl
  have a5 : launchContents m c (Proc.devRef .tc main_arg5) = rB2 m c := rfl
  generalize launchContents m c = U0 at a0 a1 a2 a3 a4 a5 ⊢
  have b1 := s1_main_v1 U0 _ a1
  have b3 := s1_main_v3 U0 _ a1
  have b4 := s1_main_v4 U0 _ _ a0 a2
  have b6 := s1_main_v6 U0 _ a1
  have b7 := s1_main_v7 U0 _ a1
  have ba3 := (s1_keep_main_arg3 U0).trans a3
  have ba4 := (s1_keep_main_arg4 U0).trans a4
  have ba5 := (s1_keep_main_arg5 U0).trans a5
  generalize after (opsS1 (F := F)) U0 = U1 at b1 b3 b4 b6 b7 ba3 ba4 ba5 ⊢
  have c30 := s2_main_v30 U1 _ b6 b7
  have c1 := (s2_keep_main_v1 U1).trans b1
  have c3 := (s2_keep_main_v3 U1).trans b3
  have c4 := (s2_keep_main_v4 U1).trans b4
  have c6 := (s2_keep_main_v6 U1).trans b6
  have c7 := (s2_keep_main_v7 U1).trans b7
  have ca3 := (s2_keep_main_arg3 U1).trans ba3
  have ca4 := (s2_keep_main_arg4 U1).trans ba4
  have ca5 := (s2_keep_main_arg5 U1).trans ba5
  generalize after (opsS2 (F := F)) U1 = U2 at c30 c1 c3 c4 c6 c7 ca3 ca4 ca5 ⊢
  have d48 := s3_main_v48 U2 _ _ _ _ c6 c7 c4 c30 ca3 ca4
  have d1 := (s3_keep_main_v1 U2).trans c1
  have d3 := (s3_keep_main_v3 U2).trans c3
  have da5 := (s3_keep_main_arg5 U2).trans ca5
  generalize after (opsS3 (F := F)) U2 = U3 at d48 d1 d3 da5 ⊢
  have e50 := s4_main_v50 U3 _ d1
  have e51 := s4_main_v51 U3 _ d3
  have e48 := (s4_keep_main_v48 U3).trans d48
  have ea5 := (s4_keep_main_arg5 U3).trans da5
  generalize after (opsS4 (F := F)) U3 = U4 at e50 e51 e48 ea5 ⊢
  have f74 := s5_main_v74 U4 _ e50 e51
  have f48 := (s5_keep_main_v48 U4).trans e48
  have f50 := (s5_keep_main_v50 U4).trans e50
  have f51 := (s5_keep_main_v51 U4).trans e51
  have fa5 := (s5_keep_main_arg5 U4).trans ea5
  generalize after (opsS5 (F := F)) U4 = U5 at f74 f48 f50 f51 fa5 ⊢
  have g90 := s6_main_v90 U5 _ _ _ f50 f51 f48 f74 fa5
  exact (s7_main_v91 _).trans (congrArg hostLsm g90)

set_option maxRecDepth 8192 in
set_option maxHeartbeats 53600000 in
/-- Every weakly fair execution of the reference terminates with the result at the logarithm of the softmax of that array's
    rows, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v91) = hostLsm (preLsm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Hand

end
-- ==== Proof.GlueEq.lean ====
/-
  The two programs name the same host operations over the same shapes and dimension numbers, each in its own
  vocabulary: the sparse part of the graph convolution spelt over the reference's records is the one spelt over the
  kernel's.
-/
import proofs.«110577_j34677565948890_1_alg».proof.Proof.Glue
import proofs.«110577_j34677565948890_1_alg».proof.Proof.RefGlue

noncomputable section

namespace Cert.Bridge

open Idealize.ShloMosaic

variable {F : FTy → Type} [FloatOps F]

theorem srcIdx_eq (e : IVec Cert.ReferenceIdeal.S2x3200000 32) :
    Cert.ReferenceIdeal.Hand.srcIdx e = Cert.KernelIdeal.Hand.srcIdx e := rfl

theorem dstIdx_eq (e : IVec Cert.ReferenceIdeal.S2x3200000 32) :
    Cert.ReferenceIdeal.Hand.dstIdx e = Cert.KernelIdeal.Hand.dstIdx e := rfl

theorem nrm_eq (e : IVec Cert.ReferenceIdeal.S2x3200000 32) :
    Cert.ReferenceIdeal.Hand.nrm (F := F) e = Cert.KernelIdeal.Hand.nrm (F := F) e := rfl

theorem agg16_eq (e : IVec Cert.ReferenceIdeal.S2x3200000 32) (h : FVec F Cert.ReferenceIdeal.S100000x16 .f32) :
    Cert.ReferenceIdeal.Hand.agg16 e h = Cert.KernelIdeal.Hand.agg16 e h := rfl

theorem agg7_eq (e : IVec Cert.ReferenceIdeal.S2x3200000 32) (h : FVec F Cert.ReferenceIdeal.S100000x7 .f32) :
    Cert.ReferenceIdeal.Hand.agg7 e h = Cert.KernelIdeal.Hand.agg7 e h := rfl

end Cert.Bridge

end
-- ==== Proof.lean ====
/-
  A two-layer graph convolution as a Pallas program against its jnp reference, over the extended reals.

  The kernel's program runs four grid computations among stretches of host operations: the node features times the first
  weight matrix; after the host has aggregated that product over the edges (each target sums its incoming sources' rows
  times the edge's weight, the product of the endpoints' inverse square-root degrees), the first bias added and the result
  clipped below at zero; that array times the second weight matrix; and, after a second aggregation, the second bias
  added and the logarithm of the softmax of each row taken the stable way. The reference computes the same by one straight
  line of host operations: the two products as contractions, the same gathers and scattered sums, a maximum with zeros,
  and jax's log_softmax. Index by index the dense stages agree over the extended reals — a product into a zero
  accumulator and the host's contraction are both the sum over the inner index, whatever shorter format the kernel
  rounded its operands to; a row's maximum folded from minus infinity is unchanged by one more maximum with minus
  infinity; a sum of exponentials started from zero is the sum — and the sparse stages are the same host operations of
  the same arguments, which nothing here needs to look inside. No law used needs the inputs to be finite.

  The kernel's value is read off its run segment by segment: each grid computation's output array is its dense stage of
  the arrays it finds (its twenty row blocks cover the array, and the block a point writes is the stage's function read
  through that block), and each host stretch is followed operation by operation.
-/
import proofs.«110577_j34677565948890_1_alg».proof.Defs
import proofs.«110577_j34677565948890_1_alg».proof.Proof.Gen.Kernel
import proofs.«110577_j34677565948890_1_alg».proof.Proof.Gen.Kernel.Skeleton
import proofs.«110577_j34677565948890_1_alg».proof.Proof.Gen.Kernel.Launch
import proofs.«110577_j34677565948890_1_alg».proof.Proof.Gen.Kernel.Points
import proofs.«110577_j34677565948890_1_alg».proof.Proof.Gen.Kernel.Frame
import proofs.«110577_j34677565948890_1_alg».proof.Proof.Gen.KernelIdeal
import proofs.«110577_j34677565948890_1_alg».proof.Proof.Gen.KernelIdeal.Skeleton
import proofs.«110577_j34677565948890_1_alg».proof.Proof.Gen.KernelIdeal.Launch
import proofs.«110577_j34677565948890_1_alg».proof.Proof.Gen.KernelIdeal.Points
import proofs.«110577_j34677565948890_1_alg».proof.Proof.Gen.KernelIdeal.Frame
import proofs.«110577_j34677565948890_1_alg».proof.Proof.Gen.ReferenceIdeal
import proofs.«110577_j34677565948890_1_alg».proof.Proof.Gen.Pre_finite_inputs
import proofs.«110577_j34677565948890_1_alg».proof.Proof.KernelRun
import proofs.«110577_j34677565948890_1_alg».proof.Proof.Fold
import proofs.«110577_j34677565948890_1_alg».proof.Proof.RefRun
import proofs.«110577_j34677565948890_1_alg».proof.Proof.GlueEq
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- From memories agreeing on the six arguments both idealized programs end with the network's function of them in
    their result arrays. -/
theorem algebraic : Cert.algebraic_KernelIdeal_ReferenceIdeal := by
  intro m ρ m' ρ' _ hagree
  refine ⟨fun c => Cert.KernelIdeal.Hand.result (Cert.KernelIdeal.Hand.aX m c) (Cert.KernelIdeal.Hand.aE m c)
    (Cert.KernelIdeal.Hand.aW1 m c) (Cert.KernelIdeal.Hand.aB1 m c) (Cert.KernelIdeal.Hand.aW2 m c) (Cert.KernelIdeal.Hand.aB2 m c), ?_, ?_⟩
  · exact (θ_run Cert.KernelIdeal.defs _ _).mono
      (fun _ h c => ⟨(h c).1.trans (Cert.KernelIdeal.Hand.W9_main_v59 m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Hand.run (F := Ideal) m' ρ')
    obtain ⟨h0, h1, h2, h3, h4, h5⟩ := hagree c
    unfold Cert.ReferenceIdeal.Hand.preLsm
    rw [Cert.ReferenceIdeal.Hand.dot1_eq, Cert.ReferenceIdeal.Hand.hostRelu_eq, Cert.ReferenceIdeal.Hand.dot2_eq,
      Cert.ReferenceIdeal.Hand.hostLsm_eq, Cert.Bridge.agg16_eq, Cert.Bridge.agg7_eq]
    unfold Cert.KernelIdeal.Hand.result
    dsimp only [Cert.ReferenceIdeal.Hand.rX, Cert.ReferenceIdeal.Hand.rE, Cert.ReferenceIdeal.Hand.rW1, Cert.ReferenceIdeal.Hand.rB1,
      Cert.ReferenceIdeal.Hand.rW2, Cert.ReferenceIdeal.Hand.rB2, Cert.KernelIdeal.Hand.aX, Cert.KernelIdeal.Hand.aE,
      Cert.KernelIdeal.Hand.aW1, Cert.KernelIdeal.Hand.aB1, Cert.KernelIdeal.Hand.aW2, Cert.KernelIdeal.Hand.aB2]
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
